-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_3)) (v1 : (c : Dev Cert.KernelIdeal.nD) → Buf (Elt Ideal) ((c.tc : Thread Cert.KernelIdeal.nD Cert.KernelIdeal.τ).loc Cert.KernelIdeal.main_v0_4)) (v2 : (c : Dev Cert.KernelIdeal.nD) → Buf (Elt Ideal) ((c.tc : Thread Cert.KernelIdeal.nD Cert.KernelIdeal.τ).loc Cert.KernelIdeal.main_v5_0)) (v3 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_3) = v0 c
          ∧ r.2.mem ((c.tc : Thread Cert.KernelIdeal.nD Cert.KernelIdeal.τ).loc Cert.KernelIdeal.main_v0_4) = v1 c
          ∧ r.2.mem ((c.tc : Thread Cert.KernelIdeal.nD Cert.KernelIdeal.τ).loc Cert.KernelIdeal.main_v5_0) = v2 c
          ∧ r.2.mem ((c.tc : Thread Cert.KernelIdeal.nD Cert.KernelIdeal.τ).loc Cert.KernelIdeal.main_v5_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) (main_arg2 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8192 : Shape := ⟨1, ![8192]⟩
abbrev S_ : Shape := ⟨0, ![]⟩
abbrev S8320 : Shape := ⟨1, ![8320]⟩
abbrev S1 : Shape := ⟨1, ![1]⟩
abbrev S8193 : Shape := ⟨1, ![8193]⟩
abbrev S8193x8193 : Shape := ⟨2, ![8193, 8193]⟩
abbrev S128 : Shape := ⟨1, ![128]⟩
abbrev S128x8193 : Shape := ⟨2, ![128, 8193]⟩
abbrev S128x1 : Shape := ⟨2, ![128, 1]⟩
abbrev S128x128 : Shape := ⟨2, ![128, 128]⟩
abbrev S1x8193 : Shape := ⟨2, ![1, 8193]⟩

abbrev nBuf : Space → Nat
  | .hbm => 19
  | .vmem => 17
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S_, .i32⟩
  | .hbm, ⟨9, _⟩ => ⟨S_, .f32⟩
  | .hbm, ⟨10, _⟩ => ⟨S8320, .f32⟩
  | .hbm, ⟨11, _⟩ => ⟨S_, .i32⟩
  | .hbm, ⟨12, _⟩ => ⟨S_, .f32⟩
  | .hbm, ⟨13, _⟩ => ⟨S8320, .f32⟩
  | .hbm, ⟨14, _⟩ => ⟨S_, .f32⟩
  | .hbm, ⟨15, _⟩ => ⟨S1, .f32⟩
  | .hbm, ⟨16, _⟩ => ⟨S8193, .f32⟩
  | .hbm, ⟨17, _⟩ => ⟨S8193x8193, .f32⟩
  | .hbm, ⟨18, _⟩ => ⟨S8193x8193, .f32⟩
  | .local _ .vmem, ⟨0, _⟩ => ⟨S8192, .f32⟩
  | .local _ .vmem, ⟨1, _⟩ => ⟨S8192, .f32⟩
  | .local _ .vmem, ⟨2, _⟩ => ⟨S8192, .f32⟩
  | .local _ .vmem, ⟨3, _⟩ => ⟨S8192, .f32⟩
  | .local _ .vmem, ⟨4, _⟩ => ⟨S8192, .f32⟩
  | .local _ .vmem, ⟨5, _⟩ => ⟨S8192, .f32⟩
  | .local _ .vmem, ⟨6, _⟩ => ⟨S8192, .f32⟩
  | .local _ .vmem, ⟨7, _⟩ => ⟨S8192, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S8193, .f32⟩
  | .local _ .vmem, ⟨13, _⟩ => ⟨S128x8193, .f32⟩
  | .local _ .vmem, ⟨14, _⟩ => ⟨S128x8193, .f32⟩
  | .local _ .vmem, ⟨15, _⟩ => ⟨S128x8193, .f32⟩
  | .local _ .vmem, ⟨16, _⟩ => ⟨S128x8193, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![65], ![false]⟩

def k1_mult1 (i : grid1.Coords) : BitVec 32 :=
  let arg0 : BitVec 32 := BitVec.ofNat 32 (i 0).val
  let c128_i32 : BitVec 32 := 128#32
  let v1 : BitVec 32 := Scalar.muli arg0 c128_i32
  v1
def k1_cond1 (i : grid1.Coords) : BitVec 1 :=
  let arg0 : BitVec 32 := BitVec.ofNat 32 (i 0).val
  let c64_i32 : BitVec 32 := 64#32
  let v0 : BitVec 1 := Scalar.cmpi .eq arg0 c64_i32
  let v_true : BitVec 1 := 1#1
  let v3 : BitVec 1 := Scalar.xori v0 v_true
  let v4 : BitVec 32 := Scalar.extui v3
  let c0_i32 : BitVec 32 := 0#32
  let v5 : BitVec 1 := Scalar.cmpi .ne v4 c0_i32
  v5

def k1_off1 (i : grid1.Coords) : Fin 2 → Nat :=
  let c0_9 : Index := 0#32
  let arg0 : BitVec 32 := BitVec.ofNat 32 (i 0).val
  let c128_i32 : BitVec 32 := 128#32
  let v1 : BitVec 32 := Scalar.muli arg0 c128_i32
  let v2 : BitVec 32 := v1
  let v29 : Index := Scalar.indexCast v2
  ![0, v29.toNat]
def k1_cond2 (i : grid1.Coords) : BitVec 1 :=
  let arg0 : BitVec 32 := BitVec.ofNat 32 (i 0).val
  let c64_i32 : BitVec 32 := 64#32
  let v0 : BitVec 1 := Scalar.cmpi .eq arg0 c64_i32
  let v6 : BitVec 32 := Scalar.extui v0
  let c0_i32_0 : BitVec 32 := 0#32
  let v7 : BitVec 1 := Scalar.cmpi .ne v6 c0_i32_0
  v7

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8193 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x8193 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x8193 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S8192_S8192_0 : ∀ a, (![0] : Fin 1 → Nat) a + S8192.size a ≤ S8192.size a
  h_S8192 : 0 < S8192.numel
  pads_S8192_S8320_01280 : S8192.Pads (![0] : Fin 1 → Nat) ![128] ![0] S8320
  h_S_ : 0 < S_.numel
  bcast_S_S1 : S_.BroadcastsInDim S1 (![] : Fin 0 → Fin S1.rank)
  concatenates_S8192_S1_S8193_d0 : Shape.Concatenates [S8192, S1] S8193 0
  inb_S128x8193_S128x8193_0_0 : ∀ a, (![0, 0] : Fin 2 → Nat) a + S128x8193.size a ≤ S128x8193.size a
  h_S128x8193 : 0 < S128x8193.numel
  inb_S128_S128_0 : ∀ a, (![0] : Fin 1 → Nat) a + S128.size a ≤ S128.size a
  h_S128 : 0 < S128.numel
  shapeCasts_S128_S128 : S128.ShapeCasts S128
  shapeCasts_S128_S128x1 : S128.ShapeCasts S128x1
  iota_S128x128_d0_w32 : S128x128.Iotas .tc 32 [0]
  iota_S128x128_d1_w32 : S128x128.Iotas .tc 32 [1]
  shapeCasts_S128x1_S128x1 : S128x1.ShapeCasts S128x1
  broadcasts_S128x1_S128x128 : S128x1.Broadcasts S128x128
  h_S128x128 : 0 < S128x128.numel
  iota_S128x8193_d1_w32 : S128x8193.Iotas .tc 32 [1]
  iota_S128x8193_d0_w32 : S128x8193.Iotas .tc 32 [0]
  inb_S8193_S8193_0 : ∀ a, (![0] : Fin 1 → Nat) a + S8193.size a ≤ S8193.size a
  h_S8193 : 0 < S8193.numel
  shapeCasts_S8193_S8193 : S8193.ShapeCasts S8193
  shapeCasts_S8193_S1x8193 : S8193.ShapeCasts S1x8193
  shapeCasts_S1x8193_S1x8193 : S1x8193.ShapeCasts S1x8193
  broadcasts_S1x8193_S128x8193 : S1x8193.Broadcasts S128x8193
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S8192.size a
  hwx0_0 : ∀ i : grid0.Coords, EltTy.bits .f32 = 32 ∨ (Rect.block (s := S8192) S8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S8192.size a
  hwx0_1 : ∀ i : grid0.Coords, EltTy.bits .f32 = 32 ∨ (Rect.block (s := S8192) S8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S8192.size a
  hwx0_2 : ∀ i : grid0.Coords, EltTy.bits .f32 = 32 ∨ (Rect.block (s := S8192) S8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S8192.size a
  hwx0_3 : ∀ i : grid0.Coords, EltTy.bits .f32 = 32 ∨ (Rect.block (s := S8192) S8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192.size a ≤ S8192.size a
  hwx0_4 : ∀ i : grid0.Coords, EltTy.bits .f32 = 32 ∨ (Rect.block (s := S8192) S8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8192.size a ≤ S8192.size a
  hwx0_5 : ∀ i : grid0.Coords, EltTy.bits .f32 = 32 ∨ (Rect.block (s := S8192) S8192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8192.size a ≤ S8192.size a
  hwx0_6 : ∀ i : grid0.Coords, EltTy.bits .f32 = 32 ∨ (Rect.block (s := S8192) S8192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8192.size a ≤ S8192.size a
  hwx0_7 : ∀ i : grid0.Coords, EltTy.bits .f32 = 32 ∨ (Rect.block (s := S8192) S8192.size (cc0_transform_7 i) (hinb0_7 i)).WholeWords (EltTy.packing .f32)
  hrank1 : 0 < grid1.rank
  k1_mult1_dvd : ∀ i : grid1.Coords, 128 ∣ (k1_mult1 i).toNat
  k1_off1_inb : ∀ i : grid1.Coords, ∀ (k1_h1 : k1_cond1 i = 1#1), ∀ a, (k1_off1 i) a + S128x128.size a ≤ S128x8193.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128.size a ≤ S8320.size a
  hwx1_0 : ∀ i : grid1.Coords, EltTy.bits .f32 = 32 ∨ (Rect.block (s := S8320) S128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S8320.size a
  hwx1_1 : ∀ i : grid1.Coords, EltTy.bits .f32 = 32 ∨ (Rect.block (s := S8320) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8193.size a ≤ S8193.size a
  hwx1_2 : ∀ i : grid1.Coords, EltTy.bits .f32 = 32 ∨ (Rect.block (s := S8193) S8193.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S128x8193.size a < S8193x8193.size a
  hwx1_3 : ∀ i : grid1.Coords, EltTy.bits .f32 = 32 ∨ (Rect.unit (s := S8193x8193) (fun a => cc1_transform_3 i a * S128x8193.size a) (fun a => (Pipeline.Clip.of (cc1_transform_3 i a) (S128x8193.size a) (S8193x8193.size a)).extent (S128x8193.size a)) fun a => Pipeline.Clip.inb (Pipeline.Clip.ok_of (hstart1_3 i a))).WholeWords (EltTy.packing .f32)
  hwxs1_3 : ∀ i : grid1.Coords, EltTy.bits .f32 = 32 ∨ (Rect.unit (s := S128x8193) (fun _ => 0) (fun a => (Pipeline.Clip.of (cc1_transform_3 i a) (S128x8193.size a) (S8193x8193.size a)).extent (S128x8193.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S128x8193.size a < S8193x8193.size a
  hwx1_4 : ∀ i : grid1.Coords, EltTy.bits .f32 = 32 ∨ (Rect.unit (s := S8193x8193) (fun a => cc1_transform_4 i a * S128x8193.size a) (fun a => (Pipeline.Clip.of (cc1_transform_4 i a) (S128x8193.size a) (S8193x8193.size a)).extent (S128x8193.size a)) fun a => Pipeline.Clip.inb (Pipeline.Clip.ok_of (hstart1_4 i a))).WholeWords (EltTy.packing .f32)
  hwxs1_4 : ∀ i : grid1.Coords, EltTy.bits .f32 = 32 ∨ (Rect.unit (s := S128x8193) (fun _ => 0) (fun a => (Pipeline.Clip.of (cc1_transform_4 i a) (S128x8193.size a) (S8193x8193.size a)).extent (S128x8193.size a)) fun a => (Nat.zero_add _).trans_le (Pipeline.Clip.extent_le (Pipeline.Clip.ok_of (hstart1_4 i a)))).WholeWords (EltTy.packing .f32)

variable [Facts₀]

abbrev win0_0 : Pipeline.Window sig grid0 :=
  Pipeline.Window.ofSpec (Memref.whole main_arg0) S8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8192.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8192.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S8192.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S8192.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S8192.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v1) S128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S8193.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpecClip (Memref.whole main_v5_0) S128x8193.size cc1_transform_3 reads1_3 true false 2 stage1_3 sem1_3
    hrank1 hreads1_3 hstart1_3 nbuf1_3 (Memref.isWhole_whole _) hwx1_3 hwxs1_3 hstage1_3

abbrev win1_4 : Pipeline.Window sig grid1 :=
  Pipeline.Window.ofSpecClip (Memref.whole main_v5_1) S128x8193.size cc1_transform_4 reads1_4 true false 2 stage1_4 sem1_4
    hrank1 hreads1_4 hstart1_4 nbuf1_4 (Memref.isWhole_whole _) hwx1_4 hwxs1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond1 i == 1#1) && !(k1_cond2 i == 1#1) | 4 => fun i => !(k1_cond1 i == 1#1) && !(k1_cond2 i == 1#1) | ⟨_ + 5, h⟩ => absurd h (Nat.not_lt.2 (Nat.le_add_left _ _))

class Facts : Prop extends Facts₀ where

variable [Facts]
-- ==== ReferenceIdeal.lean ====
abbrev S8192 : Shape := ⟨1, ![8192]⟩
abbrev S_ : Shape := ⟨0, ![]⟩
abbrev S8193x8193 : Shape := ⟨2, ![8193, 8193]⟩
abbrev S8192x1 : Shape := ⟨2, ![8192, 1]⟩
abbrev S8192x2 : Shape := ⟨2, ![8192, 2]⟩
abbrev S1 : Shape := ⟨1, ![1]⟩
abbrev S2 : Shape := ⟨1, ![2]⟩

abbrev nBuf : Space → Nat
  | .hbm => 129
  | .vmem => 0
  | .smem => 0
  | _ => 0

abbrev hbmTy0_0 (i : Nat) : BufTy := match i % 128 with
  | 0 => ⟨S8192, .f32⟩
  | 1 => ⟨S8192, .f32⟩
  | 2 => ⟨S8192, .f32⟩
  | 3 => ⟨S_, .f32⟩
  | 4 => ⟨S8192, .f32⟩
  | 5 => ⟨S8192, .i1⟩
  | 6 => ⟨S_, .f32⟩
  | 7 => ⟨S8192, .f32⟩
  | 8 => ⟨S8192, .i1⟩
  | 9 => ⟨S8192, .i1⟩
  | 10 => ⟨S_, .f32⟩
  | 11 => ⟨S8192, .f32⟩
  | 12 => ⟨S8192, .i1⟩
  | 13 => ⟨S_, .f32⟩
  | 14 => ⟨S8192, .f32⟩
  | 15 => ⟨S8192, .i1⟩
  | 16 => ⟨S8192, .i1⟩
  | 17 => ⟨S_, .f32⟩
  | 18 => ⟨S_, .f32⟩
  | 19 => ⟨S_, .f32⟩
  | 20 => ⟨S8192, .f32⟩
  | 21 => ⟨S8192, .f32⟩
  | 22 => ⟨S_, .f32⟩
  | 23 => ⟨S8192, .f32⟩
  | 24 => ⟨S8192, .f32⟩
  | 25 => ⟨S8192, .f32⟩
  | 26 => ⟨S_, .f32⟩
  | 27 => ⟨S8192, .f32⟩
  | 28 => ⟨S8192, .i1⟩
  | 29 => ⟨S_, .f32⟩
  | 30 => ⟨S8192, .f32⟩
  | 31 => ⟨S8192, .f32⟩
  | 32 => ⟨S8192, .f32⟩
  | 33 => ⟨S_, .f32⟩
  | 34 => ⟨S_, .f32⟩
  | 35 => ⟨S8192, .f32⟩
  | 36 => ⟨S8192, .f32⟩
  | 37 => ⟨S_, .f32⟩
  | 38 => ⟨S_, .f32⟩
  | 39 => ⟨S8192, .f32⟩
  | 40 => ⟨S8192, .f32⟩
  | 41 => ⟨S_, .f32⟩
  | 42 => ⟨S_, .f32⟩
  | 43 => ⟨S8192, .f32⟩
  | 44 => ⟨S8192, .f32⟩
  | 45 => ⟨S_, .f32⟩
  | 46 => ⟨S_, .f32⟩
  | 47 => ⟨S8192, .f32⟩
  | 48 => ⟨S8192, .f32⟩
  | 49 => ⟨S8192, .f32⟩
  | 50 => ⟨S8192, .f32⟩
  | 51 => ⟨S_, .f32⟩
  | 52 => ⟨S_, .f32⟩
  | 53 => ⟨S8192, .f32⟩
  | 54 => ⟨S8192, .f32⟩
  | 55 => ⟨S8192, .f32⟩
  | 56 => ⟨S_, .f32⟩
  | 57 => ⟨S_, .f32⟩
  | 58 => ⟨S8192, .f32⟩
  | 59 => ⟨S8192, .f32⟩
  | 60 => ⟨S8192, .f32⟩
  | 61 => ⟨S_, .f32⟩
  | 62 => ⟨S8192, .f32⟩
  | 63 => ⟨S8192, .i1⟩
  | 64 => ⟨S_, .f32⟩
  | 65 => ⟨S_, .f32⟩
  | 66 => ⟨S8192, .f32⟩
  | 67 => ⟨S8192, .f32⟩
  | 68 => ⟨S8192, .i32⟩
  | 69 => ⟨S_, .f32⟩
  | 70 => ⟨S8193x8193, .f32⟩
  | 71 => ⟨S_, .i32⟩
  | 72 => ⟨S8192, .i32⟩
  | 73 => ⟨S8192, .i1⟩
  | 74 => ⟨S_, .i32⟩
  | 75 => ⟨S8192, .i32⟩
  | 76 => ⟨S8192, .i32⟩
  | 77 => ⟨S8192, .i32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S8192x1, .i32⟩
  | 87 => ⟨S8192x2, .i32⟩
  | 88 => ⟨S8193x8193, .f32⟩
  | 89 => ⟨S_, .i32⟩
  | 90 => ⟨S1, .i32⟩
  | 91 => ⟨S_, .i32⟩
  | 92 => ⟨S1, .i32⟩
  | 93 => ⟨S2, .i32⟩
  | 94 => ⟨S_, .f32⟩
  | 95 => ⟨S8193x8193, .f32⟩
  | 96 => ⟨S_, .f32⟩
  | 97 => ⟨S8193x8193, .f32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S_, .i32⟩
  | 106 => ⟨S8192, .i32⟩
  | 107 => ⟨S8192, .i1⟩
  | 108 => ⟨S_, .i32⟩
  | 109 => ⟨S8192, .i32⟩
  | 110 => ⟨S8192, .i32⟩
  | 111 => ⟨S8192, .i32⟩
  | 112 => ⟨S8192x1, .i32⟩
  | 113 => ⟨S8192x1, .i32⟩
  | 114 => ⟨S8192x2, .i32⟩
  | 115 => ⟨S8193x8193, .f32⟩
  | 116 => ⟨S_, .i32⟩
  | 117 => ⟨S1, .i32⟩
  | 118 => ⟨S_, .i32⟩
  | 119 => ⟨S1, .i32⟩
  | 120 => ⟨S2, .i32⟩
  | 121 => ⟨S8193x8193, .f32⟩
  | 122 => ⟨S_, .i32⟩
  | 123 => ⟨S1, .i32⟩
  | 124 => ⟨S_, .i32⟩
  | 125 => ⟨S1, .i32⟩
  | 126 => ⟨S2, .i32⟩
  | 127 => ⟨S_, .f32⟩
  | _ => ⟨S8192, .f32⟩

abbrev hbmTy0_1 (i : Nat) : BufTy := match i % 128 with
  | 0 => ⟨S8193x8193, .f32⟩
  | _ => ⟨S8192, .f32⟩

abbrev hbmTy (i : Nat) : BufTy := match i / 128 with
  | 0 => hbmTy0_0 i
  | 1 => hbmTy0_1 i
  | _ => ⟨S8192, .f32⟩

abbrev bufTy : (tb : Table) → Fin (tcTables nBuf tb) → BufTy
  | .hbm, ⟨i, _⟩ => hbmTy i
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_cst_4 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_7 : Ref sig .tc := ⟨.hbm, 33, rfl⟩
abbrev main_call2_v0 : Ref sig .tc := ⟨.hbm, 34, rfl⟩
abbrev main_call2_v1 : Ref sig .tc := ⟨.hbm, 35, rfl⟩
abbrev main_v17 : Ref sig .tc := ⟨.hbm, 36, rfl⟩
abbrev main_cst_8 : Ref sig .tc := ⟨.hbm, 37, rfl⟩
abbrev main_call3_v0 : Ref sig .tc := ⟨.hbm, 38, rfl⟩
abbrev main_call3_v1 : Ref sig .tc := ⟨.hbm, 39, rfl⟩
abbrev main_v18 : Ref sig .tc := ⟨.hbm, 40, rfl⟩
abbrev main_cst_9 : Ref sig .tc := ⟨.hbm, 41, rfl⟩
abbrev main_call4_v0 : Ref sig .tc := ⟨.hbm, 42, rfl⟩
abbrev main_call4_v1 : Ref sig .tc := ⟨.hbm, 43, rfl⟩
abbrev main_v19 : Ref sig .tc := ⟨.hbm, 44, rfl⟩
abbrev main_cst_10 : Ref sig .tc := ⟨.hbm, 45, rfl⟩
abbrev main_call5_v0 : Ref sig .tc := ⟨.hbm, 46, rfl⟩
abbrev main_call5_v1 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_11 : Ref sig .tc := ⟨.hbm, 51, rfl⟩
abbrev main_call6_v0 : Ref sig .tc := ⟨.hbm, 52, rfl⟩
abbrev main_call6_v1 : Ref sig .tc := ⟨.hbm, 53, rfl⟩
abbrev main_v23 : Ref sig .tc := ⟨.hbm, 54, rfl⟩
abbrev main_v24 : Ref sig .tc := ⟨.hbm, 55, rfl⟩
abbrev main_cst_12 : Ref sig .tc := ⟨.hbm, 56, rfl⟩
abbrev main_call7_v0 : Ref sig .tc := ⟨.hbm, 57, rfl⟩
abbrev main_call7_v1 : Ref sig .tc := ⟨.hbm, 58, rfl⟩
abbrev main_v25 : Ref sig .tc := ⟨.hbm, 59, rfl⟩
abbrev main_v26 : Ref sig .tc := ⟨.hbm, 60, rfl⟩
abbrev main_cst_13 : Ref sig .tc := ⟨.hbm, 61, rfl⟩
abbrev main_v27 : Ref sig .tc := ⟨.hbm, 62, rfl⟩
abbrev main_v28 : Ref sig .tc := ⟨.hbm, 63, rfl⟩
abbrev main_cst_14 : Ref sig .tc := ⟨.hbm, 64, rfl⟩
abbrev main_call9_v0 : Ref sig .tc := ⟨.hbm, 65, rfl⟩
abbrev main_call9_v1 : Ref sig .tc := ⟨.hbm, 66, rfl⟩
abbrev main_v29 : Ref sig .tc := ⟨.hbm, 67, rfl⟩
abbrev main_v30 : Ref sig .tc := ⟨.hbm, 68, rfl⟩
abbrev main_cst_15 : Ref sig .tc := ⟨.hbm, 69, rfl⟩
abbrev main_v31 : Ref sig .tc := ⟨.hbm, 70, rfl⟩
abbrev main_c : Ref sig .tc := ⟨.hbm, 71, rfl⟩
abbrev main_v32 : Ref sig .tc := ⟨.hbm, 72, rfl⟩
abbrev main_v33 : Ref sig .tc := ⟨.hbm, 73, rfl⟩
abbrev main_c_16 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_c_17 : Ref sig .tc := ⟨.hbm, 78, rfl⟩
abbrev main_v37 : Ref sig .tc := ⟨.hbm, 79, rfl⟩
abbrev main_v38 : Ref sig .tc := ⟨.hbm, 80, rfl⟩
abbrev main_c_18 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_c_19 : Ref sig .tc := ⟨.hbm, 89, rfl⟩
abbrev main_v46 : Ref sig .tc := ⟨.hbm, 90, rfl⟩
abbrev main_c_20 : Ref sig .tc := ⟨.hbm, 91, rfl⟩
abbrev main_v47 : Ref sig .tc := ⟨.hbm, 92, rfl⟩
abbrev main_v48 : Ref sig .tc := ⟨.hbm, 93, rfl⟩
abbrev main_cst_21 : Ref sig .tc := ⟨.hbm, 94, rfl⟩
abbrev main_v49 : Ref sig .tc := ⟨.hbm, 95, rfl⟩
abbrev main_cst_22 : Ref sig .tc := ⟨.hbm, 96, rfl⟩
abbrev main_v50 : Ref sig .tc := ⟨.hbm, 97, rfl⟩
abbrev main_c_23 : Ref sig .tc := ⟨.hbm, 98, rfl⟩
abbrev main_v51 : Ref sig .tc := ⟨.hbm, 99, rfl⟩
abbrev main_v52 : Ref sig .tc := ⟨.hbm, 100, rfl⟩
abbrev main_c_24 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_c_25 : Ref sig .tc := ⟨.hbm, 105, rfl⟩
abbrev main_v56 : Ref sig .tc := ⟨.hbm, 106, rfl⟩
abbrev main_v57 : Ref sig .tc := ⟨.hbm, 107, rfl⟩
abbrev main_c_26 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_c_27 : Ref sig .tc := ⟨.hbm, 116, rfl⟩
abbrev main_v65 : Ref sig .tc := ⟨.hbm, 117, rfl⟩
abbrev main_c_28 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_c_29 : Ref sig .tc := ⟨.hbm, 122, rfl⟩
abbrev main_v69 : Ref sig .tc := ⟨.hbm, 123, rfl⟩
abbrev main_c_30 : Ref sig .tc := ⟨.hbm, 124, rfl⟩
abbrev main_v70 : Ref sig .tc := ⟨.hbm, 125, rfl⟩
abbrev main_v71 : Ref sig .tc := ⟨.hbm, 126, rfl⟩
abbrev main_cst_31 : Ref sig .tc := ⟨.hbm, 127, rfl⟩
abbrev main_v72 : Ref sig .tc := ⟨.hbm, 128, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S_S8193x8193 : S_.BroadcastsInDim S8193x8193 (![] : Fin 0 → Fin S8193x8193.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S_S1 : S_.BroadcastsInDim S1 (![] : Fin 0 → Fin S1.rank)
  concatenates_S1_S1_S2_d0 : Shape.Concatenates [S1, S1] S2 0
  scatter_S8193x8193_S8192x2_S8192_n_01_01_1_wf : ScatterDims.WF S8193x8193 S8192x2 S8192 [] [0, 1] [0, 1] 1
  scatter_S8193x8193_S2_S__n_01_01_0_wf : ScatterDims.WF S8193x8193 S2 S_ [] [0, 1] [0, 1] 0
  scatter_S8193x8193_S2_S8192_0_0_01_0_wf : ScatterDims.WF S8193x8193 S2 S8192 [0] [0] [0, 1] 0

variable [Facts₀]

def scatter_S8193x8193_S8192x2_S8192_n_01_01_1 : ScatterDims S8193x8193 S8192x2 S8192 where
  updateWindowDims := []
  insertedWindowDims := [0, 1]
  scatterDimsToOperandDims := [0, 1]
  indexVectorDim := 1
  wf := scatter_S8193x8193_S8192x2_S8192_n_01_01_1_wf
def scatter_S8193x8193_S2_S__n_01_01_0 : ScatterDims S8193x8193 S2 S_ where
  updateWindowDims := []
  insertedWindowDims := [0, 1]
  scatterDimsToOperandDims := [0, 1]
  indexVectorDim := 0
  wf := scatter_S8193x8193_S2_S__n_01_01_0_wf
def scatter_S8193x8193_S2_S8192_0_0_01_0 : ScatterDims S8193x8193 S2 S8192 where
  updateWindowDims := [0]
  insertedWindowDims := [0]
  scatterDimsToOperandDims := [0, 1]
  indexVectorDim := 0
  wf := scatter_S8193x8193_S2_S8192_0_0_01_0_wf

class Facts : Prop extends Facts₀ where

variable [Facts]
-- ==== Proof.Spec.lean ====
/-
  The two bound matrices of a ReLU layer's linear relaxation, as functions of the vectors they are built from.

  For a layer of n = 8192 neurons the relaxation is kept as two (n+1) x (n+1) matrices acting on the
  homogeneous vector (x, 1). Rows 0 .. n-1 hold one diagonal entry each (the slope of the lower, resp. upper,
  bounding line of that neuron) and zeros elsewhere; the last row, n, is the affine part: it holds the bias of
  each neuron's bounding line in columns 0 .. n-1 (zero for the lower bound, which has no bias) and the entry 1
  in the corner (n, n), so that the homogeneous coordinate is carried through.

  Building a matrix places entries and performs no arithmetic, so everything here is stated for any float
  values; the two constants are the words the programs spell 0.0 and 1.0 with.

  Two spellings of each matrix are given: from the slope and bias vectors of length n themselves, and from
  longer vectors whose first n entries are those (a vector padded to a whole number of row tiles, a vector with
  one more entry); the entries past n are never read, and the two spellings agree.
-/
import Idealize.ShloMosaic.PureOps
import Idealize.ShloMosaic.Lib.ValueIdx

noncomputable section

namespace Cert.Bounds

open Idealize.ShloMosaic Idealize.ShloMosaic.ValueIdx

variable {F : FTy → Type} [FloatOps F]

/-- The word of 0.0. -/
abbrev zeroF : F .f32 := FloatOps.ofBits .f32 0x00000000#32
/-- The word of 1.0. -/
abbrev oneF : F .f32 := FloatOps.ofBits .f32 0x3F800000#32

/-- A vector with one entry per neuron. -/
abbrev Vn : Shape := ⟨1, ![8192]⟩
/-- The same padded to 65 tiles of 128 rows. -/
abbrev Vpad : Shape := ⟨1, ![8320]⟩
/-- The same with one more entry. -/
abbrev Vext : Shape := ⟨1, ![8193]⟩
/-- A bound matrix. -/
abbrev Mn : Shape := ⟨2, ![8193, 8193]⟩

/-- The lower-bound matrix: row r < n has the slope `dl r` on the diagonal, the last row only the corner 1. -/
def lowMat (dl : Vn.Idx → F .f32) : Mn.Idx → F .f32 := fun i =>
  if h : (i 0).val < 8192 then
    (if (i 1).val = (i 0).val then dl (ix1 ⟨(i 0).val, h⟩) else zeroF)
  else (if (i 1).val = 8192 then oneF else zeroF)

/-- The upper-bound matrix: row r < n has the slope `du r` on the diagonal, the last row the biases `bu` and
    the corner 1. -/
def upMat (du bu : Vn.Idx → F .f32) : Mn.Idx → F .f32 := fun i =>
  if h : (i 0).val < 8192 then
    (if (i 1).val = (i 0).val then du (ix1 ⟨(i 0).val, h⟩) else zeroF)
  else (if h' : (i 1).val < 8192 then bu (ix1 ⟨(i 1).val, h'⟩) else oneF)

/-- The lower-bound matrix read off a padded slope vector. -/
def lowMatPad (p : Vpad.Idx → F .f32) : Mn.Idx → F .f32 := fun i =>
  if (i 0).val < 8192 then
    (if (i 1).val = (i 0).val then p (ix1 ⟨(i 0).val, by have := idx2_lt0 i; omega⟩) else zeroF)
  else (if (i 1).val = 8192 then oneF else zeroF)

/-- The upper-bound matrix read off a padded slope vector and a bias vector with one more entry. -/
def upMatPad (p : Vpad.Idx → F .f32) (b : Vext.Idx → F .f32) : Mn.Idx → F .f32 := fun i =>
  if (i 0).val < 8192 then
    (if (i 1).val = (i 0).val then p (ix1 ⟨(i 0).val, by have := idx2_lt0 i; omega⟩) else zeroF)
  else (if (i 1).val = 8192 then oneF else b (ix1 ⟨(i 1).val, idx2_lt1 i⟩))

/-- Only the first n entries of the padded vector are read. -/
theorem lowMatPad_eq (dl : Vn.Idx → F .f32) (p : Vpad.Idx → F .f32)
    (hp : ∀ k : Fin 8192, p (ix1 ⟨k.val, by omega⟩) = dl (ix1 k)) : lowMatPad p = lowMat dl := by
  funext i
  unfold lowMatPad lowMat
  by_cases h : (i 0).val < 8192
  · rw [if_pos h, dif_pos h]
    by_cases e : (i 1).val = (i 0).val
    · rw [if_pos e, if_pos e]; exact hp ⟨(i 0).val, h⟩
    · rw [if_neg e, if_neg e]
  · rw [if_neg h, dif_neg h]

/-- Only the first n entries of either longer vector are read: in the last row column n holds the corner. -/
theorem upMatPad_eq (du bu : Vn.Idx → F .f32) (p : Vpad.Idx → F .f32) (b : Vext.Idx → F .f32)
    (hp : ∀ k : Fin 8192, p (ix1 ⟨k.val, by omega⟩) = du (ix1 k))
    (hb : ∀ k : Fin 8192, b (ix1 ⟨k.val, by omega⟩) = bu (ix1 k)) : upMatPad p b = upMat du bu := by
  funext i
  unfold upMatPad upMat
  by_cases h : (i 0).val < 8192
  · rw [if_pos h, dif_pos h]
    by_cases e : (i 1).val = (i 0).val
    · rw [if_pos e, if_pos e]; exact hp ⟨(i 0).val, h⟩
    · rw [if_neg e, if_neg e]
  · rw [if_neg h, dif_neg h]
    have h1 := idx2_lt1 i
    by_cases e : (i 1).val = 8192
    · rw [if_pos e, dif_neg (by omega)]
    · have h' : (i 1).val < 8192 := by omega
      rw [if_neg e, dif_pos h']; exact hb ⟨(i 1).val, h'⟩

end Cert.Bounds

end
-- ==== Proof.KernelRun.lean ====
/-
  The idealized kernel program's run with its four results named.

  The generated frame certificate follows the TensorCore's buffer contents through @main as a chain of boundary
  valuations: the launch memory, what the first pallas_call's write-backs leave, the five short host stretches
  (two paddings and one concatenation with their constants), and what the second pallas_call's write-backs leave
  (`Gen.W7`). Its last step reads every unscoped buffer of the final state at `Gen.W7`; the frame keeps of that
  only the three argument arrays. Here the same run is stated keeping also the four result buffers, each at its
  value in the last boundary valuation; what those values are is read in the modules that import this one.
-/
import proofs.«133646_j47940424958601_2_alg».proof.Defs
import proofs.«133646_j47940424958601_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; in every final state the two
    result vectors and the two result matrices hold what the last boundary valuation holds at their buffers, and
    the three argument arrays are as launched. -/
theorem run_named : θ_run defs (onTc (τ := τ) (main (F := F))) ⟨m, fun _ => 0, ρ⟩ (fun r => ∀ c : Dev nD,
      r.2.mem ((c.tc : Thread nD τ).loc main_v0_3) = W7 m ρ c (Proc.devRef .tc main_v0_3)
      ∧ r.2.mem ((c.tc : Thread nD τ).loc main_v0_4) = W7 m ρ c (Proc.devRef .tc main_v0_4)
      ∧ r.2.mem ((c.tc : Thread nD τ).loc main_v5_0) = W7 m ρ c (Proc.devRef .tc main_v5_0)
      ∧ r.2.mem ((c.tc : Thread nD τ).loc main_v5_1) = W7 m ρ c (Proc.devRef .tc main_v5_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v0_3 (by decide)),
       h c _ (mem_uc main_v0_4 (by decide)),
       h c _ (mem_uc main_v5_0 (by decide)),
       h c _ (mem_uc main_v5_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.Run

end
-- ==== Proof.Pointwise.lean ====
/-
  The five vectors of the relaxation, computed alike by the two programs.

  Per neuron, from its pre-activation bounds l ≤ u and its slope parameter alpha: the neuron is "active" when
  u > 0 and l ≥ 0 (the ReLU is the identity there) and "unstable" when u > 0 and l < 0; with a = min(1, max(0, alpha))
  and lam = u / (u - l) (the divisor replaced by 1 where u = l), the lower line has slope 1, a or 0 and the upper
  line slope 1, lam or 0 with bias -lam·l, and the concrete bounds are l, a·l or 0 and max(u, 0). Both programs
  spell these with the same comparisons and selections in the same order; they differ in two spellings only:
  the kernel's quotient is the vector unit's division and the reference's the host's, which are one function on
  the extended reals, and the kernel negates lam as 0 - lam where the reference negates it, which agree because
  0 is neutral for the addition of extended reals (no finiteness is used).
-/
import proofs.«133646_j47940424958601_2_alg».proof.Proof.Gen.KernelIdeal.Skeleton
import proofs.«133646_j47940424958601_2_alg».proof.Proof.Gen.ReferenceIdeal.Read
import Idealize.ShloMosaic.PureOps.Ideal.Laws
import Idealize.ShloMosaic.Lib.ValueIdx

noncomputable section

namespace Cert.Pointwise

open Idealize.ShloMosaic Idealize.ShloMosaic.ValueIdx
open Cert.KernelIdeal.Gen Cert.ReferenceIdeal.Read

/-- The slope of the lower line. -/
theorem diag_low_eq (x0 x1 x2 : FVec Ideal Cert.KernelIdeal.S8192 .f32) :
    k0_pay6 (F := Ideal) x0 x1 x2 = val_main_v18 (F := Ideal) x0 x1 x2 := by
  funext i; rfl

/-- The lower concrete bound. -/
theorem conc_low_eq (x0 x1 x2 : FVec Ideal Cert.KernelIdeal.S8192 .f32) :
    k0_pay9 (F := Ideal) x0 x1 x2 = val_main_v26 (F := Ideal) x0 x1 x2 := by
  funext i; rfl

/-- The upper concrete bound. -/
theorem conc_up_eq (x1 : FVec Ideal Cert.KernelIdeal.S8192 .f32) :
    k0_pay1 (F := Ideal) x1 (Scalar.ofBits .f32 0x00000000#32) = val_main_v29 (F := Ideal) x1 := by
  funext i; rfl

/-- The slope of the upper line: the two divisions are one function. -/
theorem diag_up_eq (x0 x1 : FVec Ideal Cert.KernelIdeal.S8192 .f32) :
    k0_pay7 (F := Ideal) x0 x1 = val_main_v20 (F := Ideal) x0 x1 := by
  funext i; rfl

/-- The bias of the upper line: `0 - lam` is `-lam` on the extended reals. -/
theorem bias_up_eq (x0 x1 : FVec Ideal Cert.KernelIdeal.S8192 .f32) :
    k0_pay8 (F := Ideal) x0 x1 = val_main_v23 (F := Ideal) x0 x1 := by
  funext i
  show Scalar.select (k0_pay3 (F := Ideal) x0 x1 i)
        ((Ideal.ofBits .f32 0x00000000#32 - k0_pay5 (F := Ideal) x0 x1 i) * x0 i) (Ideal.ofBits .f32 0x00000000#32)
      = Scalar.select (k0_pay3 (F := Ideal) x0 x1 i)
        ((-(k0_pay5 (F := Ideal) x0 x1 i)) * x0 i) (Ideal.ofBits .f32 0x00000000#32)
  rw [Ideal.ofBits_zero_f32, zero_sub]

end Cert.Pointwise

end
-- ==== Proof.Region0.lean ====
/-
  The first kernel's five result vectors.

  The first kernel runs at a single grid point, and each of its eight windows (three operands, five results) has
  one block: the whole vector of 8192 entries, at block index 0. So the block of an operand is the operand, the
  kernel's whole-vector loads read the operands themselves, each result's single whole-vector store leaves its
  payload in the staging buffer, and the one write-back copies that payload over the whole result array.

  Nothing here looks inside the payloads: each result array is stated as the kernel's own payload function of the
  operand arrays, for any entry contents and any float values.
-/
import proofs.«133646_j47940424958601_2_alg».proof.Defs
import proofs.«133646_j47940424958601_2_alg».proof.Proof.Gen.KernelIdeal.Frame
import proofs.«133646_j47940424958601_2_alg».proof.Proof.Spec
import Idealize.ShloMosaic.Lib.Pipeline.Value
import Idealize.ShloMosaic.Lib.ValueIdx

noncomputable section
open Idealize.ShloMosaic Idealize.ShloMosaic.TcCoe Idealize.SL.Sem Idealize.ShloMosaic.ValueIdx
namespace Cert.KernelIdeal.Region0
open Cert.KernelIdeal Cert.KernelIdeal.Gen
variable {F : FTy → Type} [FloatOps F]

/-- The offsets of the whole-vector rectangle are zero. -/
theorem zero_off : (![0] : Fin 1 → Nat) = fun _ => 0 := funext fun a => by fin_cases a; rfl

/-! ## One block, the whole vector

A block's element `y` sits in the array at block index × block size + `y`; every index map of this kernel is
constantly 0 and the block size is the array's, so that is `y` itself, for each of the eight windows. -/

theorem emb0 (t : Fin cfg0.N) (y : S8192.Idx) : ((cfg0.win 0).blk t).view.emb y = y := by
  funext a; apply Fin.ext
  match a with
  | ⟨0, _⟩ =>
    show win0_0.index t (0 : Fin 1) * 8192 + 1 * (y 0).val = (y 0).val
    have e : win0_0.index t (0 : Fin 1) = 0 := rfl
    omega

theorem emb1 (t : Fin cfg0.N) (y : S8192.Idx) : ((cfg0.win 1).blk t).view.emb y = y := by
  funext a; apply Fin.ext
  match a with
  | ⟨0, _⟩ =>
    show win0_1.index t (0 : Fin 1) * 8192 + 1 * (y 0).val = (y 0).val
    have e : win0_1.index t (0 : Fin 1) = 0 := rfl
    omega

theorem emb2 (t : Fin cfg0.N) (y : S8192.Idx) : ((cfg0.win 2).blk t).view.emb y = y := by
  funext a; apply Fin.ext
  match a with
  | ⟨0, _⟩ =>
    show win0_2.index t (0 : Fin 1) * 8192 + 1 * (y 0).val = (y 0).val
    have e : win0_2.index t (0 : Fin 1) = 0 := rfl
    omega

theorem emb3 (t : Fin cfg0.N) (y : S8192.Idx) : ((cfg0.win 3).blk t).view.emb y = y := by
  funext a; apply Fin.ext
  match a with
  | ⟨0, _⟩ =>
    show win0_3.index t (0 : Fin 1) * 8192 + 1 * (y 0).val = (y 0).val
    have e : win0_3.index t (0 : Fin 1) = 0 := rfl
    omega

theorem emb4 (t : Fin cfg0.N) (y : S8192.Idx) : ((cfg0.win 4).blk t).view.emb y = y := by
  funext a; apply Fin.ext
  match a with
  | ⟨0, _⟩ =>
    show win0_4.index t (0 : Fin 1) * 8192 + 1 * (y 0).val = (y 0).val
    have e : win0_4.index t (0 : Fin 1) = 0 := rfl
    omega

theorem emb5 (t : Fin cfg0.N) (y : S8192.Idx) : ((cfg0.win 5).blk t).view.emb y = y := by
  funext a; apply Fin.ext
  match a with
  | ⟨0, _⟩ =>
    show win0_5.index t (0 : Fin 1) * 8192 + 1 * (y 0).val = (y 0).val
    have e : win0_5.index t (0 : Fin 1) = 0 := rfl
    omega

theorem emb6 (t : Fin cfg0.N) (y : S8192.Idx) : ((cfg0.win 6).blk t).view.emb y = y := by
  funext a; apply Fin.ext
  match a with
  | ⟨0, _⟩ =>
    show win0_6.index t (0 : Fin 1) * 8192 + 1 * (y 0).val = (y 0).val
    have e : win0_6.index t (0 : Fin 1) = 0 := rfl
    omega

theorem emb7 (t : Fin cfg0.N) (y : S8192.Idx) : ((cfg0.win 7).blk t).view.emb y = y := by
  funext a; apply Fin.ext
  match a with
  | ⟨0, _⟩ =>
    show win0_7.index t (0 : Fin 1) * 8192 + 1 * (y 0).val = (y 0).val
    have e : win0_7.index t (0 : Fin 1) = 0 := rfl
    omega

/-! ## Reading an operand's block reads the operand -/

theorem blockRead0 (t : Fin cfg0.N) (X : S8192.Idx → Elt F .f32) :
    ((cfg0.win 0).blk t).view.read (Elt F) X = X := by
  funext y
  show X (((cfg0.win 0).blk t).view.emb y) = X y
  rw [emb0]

theorem blockRead1 (t : Fin cfg0.N) (X : S8192.Idx → Elt F .f32) :
    ((cfg0.win 1).blk t).view.read (Elt F) X = X := by
  funext y
  show X (((cfg0.win 1).blk t).view.emb y) = X y
  rw [emb1]

theorem blockRead2 (t : Fin cfg0.N) (X : S8192.Idx → Elt F .f32) :
    ((cfg0.win 2).blk t).view.read (Elt F) X = X := by
  funext y
  show X (((cfg0.win 2).blk t).view.emb y) = X y
  rw [emb2]

/-! ## What a result's write-back moves is the block of the staged vector

No result window is cut (the block does not overhang the array), so the part the transfer moves is the whole
staging buffer, and that is the block of the same vector read through the window. -/

theorem moved3 (t : Fin cfg0.N) (G : S8192.Idx → Elt F .f32) :
    (cfg0.win 3).cut (grid0.coords t) G = ((cfg0.win 3).blk t).view.read (Elt F) G := by
  funext y
  show G y = G (((cfg0.win 3).blk t).view.emb y)
  rw [emb3]

theorem moved4 (t : Fin cfg0.N) (G : S8192.Idx → Elt F .f32) :
    (cfg0.win 4).cut (grid0.coords t) G = ((cfg0.win 4).blk t).view.read (Elt F) G := by
  funext y
  show G y = G (((cfg0.win 4).blk t).view.emb y)
  rw [emb4]

theorem moved5 (t : Fin cfg0.N) (G : S8192.Idx → Elt F .f32) :
    (cfg0.win 5).cut (grid0.coords t) G = ((cfg0.win 5).blk t).view.read (Elt F) G := by
  funext y
  show G y = G (((cfg0.win 5).blk t).view.emb y)
  rw [emb5]

theorem moved6 (t : Fin cfg0.N) (G : S8192.Idx → Elt F .f32) :
    (cfg0.win 6).cut (grid0.coords t) G = ((cfg0.win 6).blk t).view.read (Elt F) G := by
  funext y
  show G y = G (((cfg0.win 6).blk t).view.emb y)
  rw [emb6]

theorem moved7 (t : Fin cfg0.N) (G : S8192.Idx → Elt F .f32) :
    (cfg0.win 7).cut (grid0.coords t) G = ((cfg0.win 7).blk t).view.read (Elt F) G := by
  funext y
  show G y = G (((cfg0.win 7).blk t).view.emb y)
  rw [emb7]

/-! ## The one point's block covers the whole result array -/

theorem cover3 (i : S8192.Idx) :
    ∃ t : Fin cfg0.N, (cfg0.win 3).flush t = true ∧ i ∈ ((cfg0.win 3).blk t).view.set := by
  refine ⟨t0_0, flush0_3 _, ?_⟩
  show i ∈ ((View.whole main_v0_0).slice (win0_3.rect t0_0)).set
  rw [View.set_slice_whole, Rect.mem_set_unit]
  intro a
  match a with
  | ⟨0, _⟩ =>
    show win0_3.index t0_0 (0 : Fin 1) * 8192 ≤ (i 0).val ∧ (i 0).val < win0_3.index t0_0 (0 : Fin 1) * 8192 + 8192
    have e : win0_3.index t0_0 (0 : Fin 1) = 0 := rfl
    have hi : (i 0).val < 8192 := (i 0).isLt
    omega

theorem cover4 (i : S8192.Idx) :
    ∃ t : Fin cfg0.N, (cfg0.win 4).flush t = true ∧ i ∈ ((cfg0.win 4).blk t).view.set := by
  refine ⟨t0_0, flush0_4 _, ?_⟩
  show i ∈ ((View.whole main_v0_1).slice (win0_4.rect t0_0)).set
  rw [View.set_slice_whole, Rect.mem_set_unit]
  intro a
  match a with
  | ⟨0, _⟩ =>
    show win0_4.index t0_0 (0 : Fin 1) * 8192 ≤ (i 0).val ∧ (i 0).val < win0_4.index t0_0 (0 : Fin 1) * 8192 + 8192
    have e : win0_4.index t0_0 (0 : Fin 1) = 0 := rfl
    have hi : (i 0).val < 8192 := (i 0).isLt
    omega

theorem cover5 (i : S8192.Idx) :
    ∃ t : Fin cfg0.N, (cfg0.win 5).flush t = true ∧ i ∈ ((cfg0.win 5).blk t).view.set := by
  refine ⟨t0_0, flush0_5 _, ?_⟩
  show i ∈ ((View.whole main_v0_2).slice (win0_5.rect t0_0)).set
  rw [View.set_slice_whole, Rect.mem_set_unit]
  intro a
  match a with
  | ⟨0, _⟩ =>
    show win0_5.index t0_0 (0 : Fin 1) * 8192 ≤ (i 0).val ∧ (i 0).val < win0_5.index t0_0 (0 : Fin 1) * 8192 + 8192
    have e : win0_5.index t0_0 (0 : Fin 1) = 0 := rfl
    have hi : (i 0).val < 8192 := (i 0).isLt
    omega

theorem cover6 (i : S8192.Idx) :
    ∃ t : Fin cfg0.N, (cfg0.win 6).flush t = true ∧ i ∈ ((cfg0.win 6).blk t).view.set := by
  refine ⟨t0_0, flush0_6 _, ?_⟩
  show i ∈ ((View.whole main_v0_3).slice (win0_6.rect t0_0)).set
  rw [View.set_slice_whole, Rect.mem_set_unit]
  intro a
  match a with
  | ⟨0, _⟩ =>
    show win0_6.index t0_0 (0 : Fin 1) * 8192 ≤ (i 0).val ∧ (i 0).val < win0_6.index t0_0 (0 : Fin 1) * 8192 + 8192
    have e : win0_6.index t0_0 (0 : Fin 1) = 0 := rfl
    have hi : (i 0).val < 8192 := (i 0).isLt
    omega

theorem cover7 (i : S8192.Idx) :
    ∃ t : Fin cfg0.N, (cfg0.win 7).flush t = true ∧ i ∈ ((cfg0.win 7).blk t).view.set := by
  refine ⟨t0_0, flush0_7 _, ?_⟩
  show i ∈ ((View.whole main_v0_4).slice (win0_7.rect t0_0)).set
  rw [View.set_slice_whole, Rect.mem_set_unit]
  intro a
  match a with
  | ⟨0, _⟩ =>
    show win0_7.index t0_0 (0 : Fin 1) * 8192 ≤ (i 0).val ∧ (i 0).val < win0_7.index t0_0 (0 : Fin 1) * 8192 + 8192
    have e : win0_7.index t0_0 (0 : Fin 1) = 0 := rfl
    have hi : (i 0).val < 8192 := (i 0).isLt
    omega

/-! ## What the point writes back, and the result arrays -/

variable (V : (c : Dev nD) → (b : Ref sig .tc) → Buf (Elt F) ((c : Thread nD τ).loc b))

/-- The operands' blocks are the operand arrays as the kernel finds them. -/
theorem block0 (c : Dev nD) (t : Fin cfg0.N) : iblk0 V c 0 t = V c main_arg0 := blockRead0 t _
theorem block1 (c : Dev nD) (t : Fin cfg0.N) : iblk0 V c 1 t = V c main_arg1 := blockRead1 t _
theorem block2 (c : Dev nD) (t : Fin cfg0.N) : iblk0 V c 2 t = V c main_arg2 := blockRead2 t _

theorem written3 (c : Dev nD) (t : Fin cfg0.N) :
    (dat0 V c).flushed 3 t
      = ((cfg0.win 3).blk t).view.read (Elt F) (k0_pay6 (V c main_arg0) (V c main_arg1) (V c main_arg2)) := by
  show (cfg0.win 3).cut (grid0.coords t) ((dat0 V c).after 3 t) = _
  rw [after0_3]
  unfold out0_3
  rw [View.canon_unit_zero zero_off]
  simp only [View.ld_unit_zero (S := S8192) zero_off]
  rw [block0, block1, block2]
  exact moved3 t _

theorem written4 (c : Dev nD) (t : Fin cfg0.N) :
    (dat0 V c).flushed 4 t
      = ((cfg0.win 4).blk t).view.read (Elt F) (k0_pay7 (V c main_arg0) (V c main_arg1)) := by
  show (cfg0.win 4).cut (grid0.coords t) ((dat0 V c).after 4 t) = _
  rw [after0_4]
  unfold out0_4
  rw [View.canon_unit_zero zero_off]
  simp only [View.ld_unit_zero (S := S8192) zero_off]
  rw [block0, block1]
  exact moved4 t _

theorem written5 (c : Dev nD) (t : Fin cfg0.N) :
    (dat0 V c).flushed 5 t
      = ((cfg0.win 5).blk t).view.read (Elt F) (k0_pay8 (V c main_arg0) (V c main_arg1)) := by
  show (cfg0.win 5).cut (grid0.coords t) ((dat0 V c).after 5 t) = _
  rw [after0_5]
  unfold out0_5
  rw [View.canon_unit_zero zero_off]
  simp only [View.ld_unit_zero (S := S8192) zero_off]
  rw [block0, block1]
  exact moved5 t _

theorem written6 (c : Dev nD) (t : Fin cfg0.N) :
    (dat0 V c).flushed 6 t
      = ((cfg0.win 6).blk t).view.read (Elt F) (k0_pay9 (V c main_arg0) (V c main_arg1) (V c main_arg2)) := by
  show (cfg0.win 6).cut (grid0.coords t) ((dat0 V c).after 6 t) = _
  rw [after0_6]
  unfold out0_6
  rw [View.canon_unit_zero zero_off]
  simp only [View.ld_unit_zero (S := S8192) zero_off]
  rw [block0, block1, block2]
  exact moved6 t _

theorem written7 (c : Dev nD) (t : Fin cfg0.N) :
    (dat0 V c).flushed 7 t
      = ((cfg0.win 7).blk t).view.read (Elt F) (k0_pay1 (V c main_arg1) (Scalar.ofBits .f32 0x00000000#32)) := by
  show (cfg0.win 7).cut (grid0.coords t) ((dat0 V c).after 7 t) = _
  rw [after0_7]
  unfold out0_7
  rw [View.canon_unit_zero zero_off]
  simp only [View.ld_unit_zero (S := S8192) zero_off]
  rw [block1]
  exact moved7 t _

/-- The slopes of the lower bounding lines. -/
theorem arr_diag_low (c : Dev nD) :
    (dat0 V c).arrAt 3 cfg0.N = k0_pay6 (V c main_arg0) (V c main_arg1) (V c main_arg2) :=
  (dat0 V c).arrAt_eq_of_cover 3 _ (fun t _ => written3 V c t) cover3

/-- The slopes of the upper bounding lines. -/
theorem arr_diag_up (c : Dev nD) :
    (dat0 V c).arrAt 4 cfg0.N = k0_pay7 (V c main_arg0) (V c main_arg1) :=
  (dat0 V c).arrAt_eq_of_cover 4 _ (fun t _ => written4 V c t) cover4

/-- The biases of the upper bounding lines. -/
theorem arr_bias_up (c : Dev nD) :
    (dat0 V c).arrAt 5 cfg0.N = k0_pay8 (V c main_arg0) (V c main_arg1) :=
  (dat0 V c).arrAt_eq_of_cover 5 _ (fun t _ => written5 V c t) cover5

/-- The concrete lower bounds. -/
theorem arr_conc_low (c : Dev nD) :
    (dat0 V c).arrAt 6 cfg0.N = k0_pay9 (V c main_arg0) (V c main_arg1) (V c main_arg2) :=
  (dat0 V c).arrAt_eq_of_cover 6 _ (fun t _ => written6 V c t) cover6

/-- The concrete upper bounds. -/
theorem arr_conc_up (c : Dev nD) :
    (dat0 V c).arrAt 7 cfg0.N = k0_pay1 (V c main_arg1) (Scalar.ofBits .f32 0x00000000#32) :=
  (dat0 V c).arrAt_eq_of_cover 7 _ (fun t _ => written7 V c t) cover7

end Cert.KernelIdeal.Region0
end
-- ==== Proof.Region1.lean ====
import proofs.«133646_j47940424958601_2_alg».proof.Defs
import proofs.«133646_j47940424958601_2_alg».proof.Proof.Gen.KernelIdeal.Frame
import proofs.«133646_j47940424958601_2_alg».proof.Proof.Spec
import Idealize.ShloMosaic.Lib.Pipeline.Value
import Idealize.ShloMosaic.Lib.ValueIdx

noncomputable section
open Idealize.ShloMosaic Idealize.ShloMosaic.TcCoe Idealize.SL.Sem Idealize.ShloMosaic.ValueIdx
namespace Cert.KernelIdeal.Region1
open Cert.KernelIdeal Cert.KernelIdeal.Gen Cert.Bounds
variable {F : FTy → Type} [FloatOps F]
variable (V : (c : Dev nD) → (b : Ref sig .tc) → Buf (Elt F) ((c : Thread nD τ).loc b))

/-!
# The two bound matrices, as the second grid leaves them

The second grid has 65 points. Point t < 64 fills a staging block of 128 rows by 8193 columns with zeros and then
overwrites the 128 x 128 tile at column offset 128 t with the diagonal tile of the 128 slopes it loaded: entry
(r, 128 t + r) is slope 128 t + r. Its rows are rows 128 t … 128 t + 127 of the matrix. Point 64 fills its block
with the last row of the matrix in local row 0 (the corner 1 for the lower matrix; the biases and then the corner 1
for the upper one); only that row lies inside the 8193-row matrix, so only it is written back. Every row of the
matrix is in the block of point row / 128, so after the grid the two arrays hold the lower and the upper matrix
of the specification, read off the padded slope vectors and the extended bias vector — whatever the buffers held
at the grid's entry. Nothing here depends on the float values: entries are placed, never computed.
-/

/-! ## Words

The programs spell 0.0 and 1.0 by their 32-bit words; the integer masks compare 32-bit words of small naturals. -/

/-- Two naturals below 2^32 have the same 32-bit word only if they are equal. -/
theorem word_eq_iff {a b : Nat} (ha : a < 4294967296) (hb : b < 4294967296) :
    BitVec.ofNat 32 a = BitVec.ofNat 32 b ↔ a = b := by
  constructor
  · intro h
    have h' := congrArg BitVec.toNat h
    rw [BitVec.toNat_ofNat, BitVec.toNat_ofNat] at h'
    omega
  · intro h; rw [h]

/-- A select on a mask word is the `if` on the mask's meaning. -/
theorem select_of_iff {α : Type} {m : BitVec 1} {P : Prop} [Decidable P] (h : m = 1#1 ↔ P) (a b : α) :
    Scalar.select m a b = if P then a else b := by
  unfold Scalar.select
  by_cases hp : P
  · exact (if_pos (h.mpr hp)).trans (if_pos hp).symm
  · exact (if_neg (fun e => hp (h.mp e))).trans (if_neg hp).symm

/-! ## The payloads at an index -/

/-- The diagonal mask of a 128 x 128 tile: row index = column index. -/
theorem pay3_apply (r k : Fin 128) : k1_pay3 (ix2 r k) = 1#1 ↔ r.val = k.val := by
  unfold k1_pay3
  show IntOp.cmpi .eq (iota .tc S128x128 32 [0] iota_S128x128_d0_w32 (ix2 r k)) (iota .tc S128x128 32 [1] iota_S128x128_d1_w32 (ix2 r k)) = 1#1 ↔ _
  rw [iota_single_apply, iota_single_apply, IntOp.cmpi_eq]
  show BitVec.ofNat 32 r.val = BitVec.ofNat 32 k.val ↔ _
  exact word_eq_iff (by have := r.isLt; omega) (by have := k.isLt; omega)

/-- A 128-vector turned into a column and repeated along the rows reads its row's entry. -/
theorem column_apply (v : Vec F S128 .f32) (r k : Fin 128) :
    broadcastTo S128x128 (shapeCast S128x1 (shapeCast S128x1 (shapeCast S128 v shapeCasts_S128_S128) shapeCasts_S128_S128x1) shapeCasts_S128x1_S128x1) broadcasts_S128x1_S128x128 (ix2 r k) = v (ix1 r) := by
  refine (broadcastTo_apply _ _ (ix2 r k) (ix2 r (0 : Fin 1)) (fun a => ?_)).trans ?_
  · match a with
    | ⟨0, _⟩ => rfl
    | ⟨1, _⟩ => rfl
  rw [shapeCast_self, shapeCast_self]
  refine shapeCast_apply _ _ (ix2 r (0 : Fin 1)) (ix1 r) ?_
  rw [Shape.rowMajor_val_one, Shape.rowMajor_val_two]
  show r.val = r.val * 1 + 0
  omega

/-- The diagonal tile of the lower (resp. upper) matrix: the loaded slopes on the diagonal, zeros elsewhere. -/
theorem pay4_apply (v : Vec F S128 .f32) (r k : Fin 128) :
    k1_pay4 v (ix2 r k) = if r.val = k.val then v (ix1 r) else zeroF := by
  unfold k1_pay4
  refine (select_of_iff (pay3_apply r k) _ _).trans ?_
  rw [column_apply]
  rfl

theorem pay5_apply (v : Vec F S128 .f32) (r k : Fin 128) :
    k1_pay5 v (ix2 r k) = if r.val = k.val then v (ix1 r) else zeroF := by
  unfold k1_pay5
  refine (select_of_iff (pay3_apply r k) _ _).trans ?_
  rw [column_apply]
  rfl

/-- The zero fill of a 128 x 8193 staging block. -/
theorem pay1_apply (y : S128x8193.Idx) : k1_pay1 (F := F) y = zeroF := rfl
theorem pay2_apply (y : S128x8193.Idx) : k1_pay2 (F := F) y = zeroF := rfl

/-- The mask "local row 0" of the last tile. -/
theorem pay6_apply (r : Fin 128) (k : Fin 8193) : k1_pay6 (ix2 r k) = 1#1 ↔ r.val = 0 := by
  unfold k1_pay6
  show IntOp.cmpi .eq (iota .tc S128x8193 32 [0] iota_S128x8193_d0_w32 (ix2 r k)) (0#32) = 1#1 ↔ _
  rw [iota_single_apply, IntOp.cmpi_eq]
  show BitVec.ofNat 32 r.val = BitVec.ofNat 32 0 ↔ _
  exact word_eq_iff (by have := r.isLt; omega) (by omega)

/-- The mask "column 8192" of the last tile. -/
theorem pay7_apply (r : Fin 128) (k : Fin 8193) : k1_pay7 (ix2 r k) = 1#1 ↔ k.val = 8192 := by
  unfold k1_pay7
  show IntOp.cmpi .eq (iota .tc S128x8193 32 [1] iota_S128x8193_d1_w32 (ix2 r k)) (8192#32) = 1#1 ↔ _
  rw [iota_single_apply, IntOp.cmpi_eq]
  show BitVec.ofNat 32 k.val = BitVec.ofNat 32 8192 ↔ _
  exact word_eq_iff (by have := k.isLt; omega) (by omega)

/-- A small natural's 32-bit word read as a signed integer is the natural. -/
theorem word_toInt {a : Nat} (ha : a < 2147483648) : (BitVec.ofNat 32 a).toInt = (a : Int) := by
  rw [BitVec.toInt_eq_toNat_cond, BitVec.toNat_ofNat]
  have e : a % 2 ^ 32 = a := Nat.mod_eq_of_lt (by omega)
  rw [e, if_pos (by omega)]

/-- The mask "column below 8192" of the last tile (a signed comparison of small words). -/
theorem slt_apply (r : Fin 128) (k : Fin 8193) :
    cmpi .slt (iota .tc S128x8193 32 [1] iota_S128x8193_d1_w32) (broadcast S128x8193 8192#32) (ix2 r k) = 1#1 ↔ k.val < 8192 := by
  show IntOp.cmpi .slt (iota .tc S128x8193 32 [1] iota_S128x8193_d1_w32 (ix2 r k)) (8192#32) = 1#1 ↔ _
  rw [iota_single_apply, IntOp.cmpi_slt]
  show (BitVec.ofNat 32 k.val).toInt < (BitVec.ofNat 32 8192).toInt ↔ _
  rw [word_toInt (by have := k.isLt; omega), word_toInt (by omega)]
  omega

/-- The last tile of the lower matrix: the corner 1 in local row 0, zeros elsewhere. -/
theorem pay8_apply (r : Fin 128) (k : Fin 8193) :
    k1_pay8 (F := F) (ix2 r k) = if r.val = 0 ∧ k.val = 8192 then oneF else zeroF := by
  unfold k1_pay8
  refine (select_of_iff (P := r.val = 0 ∧ k.val = 8192) ?_ _ _).trans rfl
  show IntOp.andi (k1_pay6 (ix2 r k)) (k1_pay7 (ix2 r k)) = 1#1 ↔ _
  rw [IntOp.andi_eq_one, pay6_apply, pay7_apply]

/-- An 8193-vector turned into a row and repeated down the rows reads its column's entry. -/
theorem row_apply (v : Vec F S8193 .f32) (r : Fin 128) (k : Fin 8193) :
    broadcastTo S128x8193 (shapeCast S1x8193 (shapeCast S1x8193 (shapeCast S8193 v shapeCasts_S8193_S8193) shapeCasts_S8193_S1x8193) shapeCasts_S1x8193_S1x8193) broadcasts_S1x8193_S128x8193 (ix2 r k) = v (ix1 k) := by
  refine (broadcastTo_apply _ _ (ix2 r k) (ix2 (0 : Fin 1) k) (fun a => ?_)).trans ?_
  · match a with
    | ⟨0, _⟩ => rfl
    | ⟨1, _⟩ => rfl
  rw [shapeCast_self, shapeCast_self]
  refine shapeCast_apply _ _ (ix2 (0 : Fin 1) k) (ix1 k) ?_
  rw [Shape.rowMajor_val_one, Shape.rowMajor_val_two]
  show k.val = 0 * 8193 + k.val
  omega

/-- The last tile of the upper matrix: in local row 0 the loaded biases and the corner 1, zeros elsewhere. -/
theorem pay9_apply (v : Vec F S8193 .f32) (r : Fin 128) (k : Fin 8193) :
    k1_pay9 v (ix2 r k) = if k.val = 8192 then (if r.val = 0 then oneF else zeroF)
      else (if r.val = 0 ∧ k.val < 8192 then v (ix1 k) else zeroF) := by
  unfold k1_pay9
  refine (select_of_iff (pay7_apply r k) _ _).trans ?_
  refine congr (congrArg _ ?_) ?_
  · exact (select_of_iff (pay6_apply r k) _ _).trans rfl
  · refine (select_of_iff (P := r.val = 0 ∧ k.val < 8192) ?_ _ _).trans ?_
    · show IntOp.andi (k1_pay6 (ix2 r k)) (cmpi .slt (iota .tc S128x8193 32 [1] iota_S128x8193_d1_w32) (broadcast S128x8193 8192#32) (ix2 r k)) = 1#1 ↔ _
      rw [IntOp.andi_eq_one, pay6_apply, slt_apply]
    · rw [row_apply]; rfl

/-! ## A staging block read back from its stores

The body fills a 128 x 8193 staging block by one store of the whole block and, before the last grid point, a
later store of a 128 x 128 tile at a column offset; what the block then holds at (r, k) is the tile's entry
where column k lies under the tile and the first store's entry elsewhere. -/

theorem hz1 : (![0] : Fin 1 → Nat) = fun _ => 0 := funext fun a => by fin_cases a; rfl
theorem hz2 : (![0, 0] : Fin 2 → Nat) = fun _ => 0 := funext fun a => by fin_cases a <;> rfl

section Canon
variable {Val : EltTy → Type} [∀ e, Nonempty (Val e)]

/-- Under the tile: its entry at the column's distance from the offset. -/
theorem canon_tile_in (off : Fin 2 → Nat) (inb : ∀ a, off a + (![128, 128] : Fin 2 → Nat) a ≤ S128x8193.size a)
    (h0 : off 0 = 0) (w : S128x128.Idx → Val .f32) (L : List (View.Piece Val S128x8193 .f32)) (r : Fin 128) (k : Fin 8193)
    (h : off 1 ≤ k.val ∧ k.val < off 1 + 128) :
    View.canon ((⟨Rect.unit off ![128, 128] inb, w⟩ : View.Piece Val S128x8193 .f32) :: L) (ix2 r k)
      = w (ix2 r ⟨k.val - off 1, by omega⟩) := by
  have e : (Rect.unit (s := S128x8193) off ![128, 128] inb).emb (ix2 r (⟨k.val - off 1, by omega⟩ : Fin 128)) = ix2 r k := by
    funext a; apply Fin.ext
    match a with
    | ⟨0, _⟩ => show off 0 + 1 * r.val = r.val; omega
    | ⟨1, _⟩ => show off 1 + 1 * (k.val - off 1) = k.val; omega
  rw [← e]; exact View.canon_cons_emb (Rect.unit (s := S128x8193) off ![128, 128] inb) w L _

/-- Off the tile: what the earlier stores left. -/
theorem canon_tile_out (off : Fin 2 → Nat) (inb : ∀ a, off a + (![128, 128] : Fin 2 → Nat) a ≤ S128x8193.size a)
    (w : S128x128.Idx → Val .f32) (L : List (View.Piece Val S128x8193 .f32)) (r : Fin 128) (k : Fin 8193)
    (h : ¬(off 1 ≤ k.val ∧ k.val < off 1 + 128)) :
    View.canon ((⟨Rect.unit off ![128, 128] inb, w⟩ : View.Piece Val S128x8193 .f32) :: L) (ix2 r k)
      = View.canon L (ix2 r k) := by
  refine View.canon_cons_of_not_mem _ L ?_
  rw [Rect.mem_set_unit]
  intro hm
  exact h ⟨(hm 1).1, (hm 1).2⟩

end Canon

/-! ## What each case leaves in the staging blocks -/

/-- A load of a whole 128-entry staging buffer reads its contents. -/
theorem readAt_S128 (a : Memref sig .tc .vmem S128 .f32) (ha : a.IsWhole) (x : Vec F S128 .f32) :
    View.readAt (Elt F) a.view (Rect.unit ![0] ![128] inb_S128_S128_0).toLoadRect (ha.unread x) = x := by
  rw [View.readAt_eq_ld, ha.read_unread]
  exact View.ld_unit_zero (S := S128) hz1 _ x

/-- A load of a whole 8193-entry staging buffer reads its contents. -/
theorem readAt_S8193 (a : Memref sig .tc .vmem S8193 .f32) (ha : a.IsWhole) (x : Vec F S8193 .f32) :
    View.readAt (Elt F) a.view (Rect.unit ![0] ![8193] inb_S8193_S8193_0).toLoadRect (ha.unread x) = x := by
  rw [View.readAt_eq_ld, ha.read_unread]
  exact View.ld_unit_zero (S := S8193) hz1 _ x

section Stage
variable (c : Dev nD) (i : grid1.Coords)
  (arg1 : Memref sig .tc .vmem S128 .f32) (harg1 : arg1.IsWhole) (arg2 : Memref sig .tc .vmem S128 .f32) (harg2 : arg2.IsWhole)
  (arg3 : Memref sig .tc .vmem S8193 .f32) (harg3 : arg3.IsWhole) (arg4 : Memref sig .tc .vmem S128x8193 .f32) (harg4 : arg4.IsWhole)
  (arg5 : Memref sig .tc .vmem S128x8193 .f32) (harg5 : arg5.IsWhole)
  (x0 x1 : Vec F S128 .f32) (x2 : Vec F S8193 .f32)

/-- Before the last point, the lower matrix's staging block: the tile's slopes on the tile's diagonal, zeros elsewhere. -/
theorem stageA_low (hc0 : cond1_0 i) (hc1 : ¬cond1_1 i) (r : Fin 128) (k : Fin 8193) :
    out1_A_3 c i arg1 harg1 arg2 harg2 arg3 harg3 arg4 harg4 arg5 harg5 hc0 hc1 x0 x1 x2 (ix2 r k)
      = if k1_off1 i 1 ≤ k.val ∧ k.val < k1_off1 i 1 + 128 then (if r.val = k.val - k1_off1 i 1 then x0 (ix1 r) else zeroF) else zeroF := by
  unfold out1_A_3
  rw [View.read_writes_junk_eq_canon]
  unfold kernelRun1_A
  dsimp only
  by_cases h : k1_off1 i 1 ≤ k.val ∧ k.val < k1_off1 i 1 + 128
  · rw [if_pos h, canon_tile_in _ _ rfl _ _ r k h]
    refine (congrArg (fun v => k1_pay4 v (ix2 r _)) (readAt_S128 arg1 harg1 x0)).trans ?_
    exact pay4_apply x0 r _
  · rw [if_neg h, canon_tile_out _ _ _ _ r k h, View.canon_unit_zero hz2]
    rfl

/-- The same for the upper matrix. -/
theorem stageA_up (hc0 : cond1_0 i) (hc1 : ¬cond1_1 i) (r : Fin 128) (k : Fin 8193) :
    out1_A_4 c i arg1 harg1 arg2 harg2 arg3 harg3 arg4 harg4 arg5 harg5 hc0 hc1 x0 x1 x2 (ix2 r k)
      = if k1_off1 i 1 ≤ k.val ∧ k.val < k1_off1 i 1 + 128 then (if r.val = k.val - k1_off1 i 1 then x1 (ix1 r) else zeroF) else zeroF := by
  unfold out1_A_4
  rw [View.read_writes_junk_eq_canon]
  unfold kernelRun1_A
  dsimp only
  by_cases h : k1_off1 i 1 ≤ k.val ∧ k.val < k1_off1 i 1 + 128
  · rw [if_pos h, canon_tile_in _ _ rfl _ _ r k h]
    refine (congrArg (fun v => k1_pay5 v (ix2 r _)) (readAt_S128 arg2 harg2 x1)).trans ?_
    exact pay5_apply x1 r _
  · rw [if_neg h, canon_tile_out _ _ _ _ r k h, View.canon_unit_zero hz2]
    rfl

/-- At the last point, the lower matrix's staging block: the corner 1 at local row 0, zeros elsewhere. -/
theorem stageB_low (hc0 : ¬cond1_0 i) (hc1 : cond1_1 i) (r : Fin 128) (k : Fin 8193) :
    out1_B_3 c i arg1 harg1 arg2 harg2 arg3 harg3 arg4 harg4 arg5 harg5 hc0 hc1 x0 x1 x2 (ix2 r k)
      = if r.val = 0 ∧ k.val = 8192 then oneF else zeroF := by
  unfold out1_B_3
  rw [View.read_writes_junk_eq_canon]
  unfold kernelRun1_B
  dsimp only
  rw [View.canon_unit_zero hz2]
  exact pay8_apply r k

/-- At the last point, the upper matrix's staging block: biases and corner at local row 0, zeros elsewhere. -/
theorem stageB_up (hc0 : ¬cond1_0 i) (hc1 : cond1_1 i) (r : Fin 128) (k : Fin 8193) :
    out1_B_4 c i arg1 harg1 arg2 harg2 arg3 harg3 arg4 harg4 arg5 harg5 hc0 hc1 x0 x1 x2 (ix2 r k)
      = if k.val = 8192 then (if r.val = 0 then oneF else zeroF)
        else (if r.val = 0 ∧ k.val < 8192 then x2 (ix1 k) else zeroF) := by
  unfold out1_B_4
  rw [View.read_writes_junk_eq_canon]
  unfold kernelRun1_B
  dsimp only
  rw [View.canon_unit_zero hz2]
  refine (congrArg (fun v => k1_pay9 v (ix2 r k)) (readAt_S8193 arg3 harg3 x2)).trans ?_
  exact pay9_apply x2 r k
end Stage

/-! ## The grid, decided

Point t of the 65 handles rows 128 t … 128 t + 127 (the last point: row 8192 only), all 8193 columns; its tile's
column offset is 128 t; the slope windows read entries 128 t … 128 t + 127, the bias window the whole vector. -/

theorem grid_facts : ∀ t : Fin cfg1.N,
    k1_off1 (grid1.coords t) 1 = 128 * t.val
    ∧ win1_0.index t (0 : Fin 1) = t.val
    ∧ win1_1.index t (0 : Fin 1) = t.val
    ∧ win1_2.index t (0 : Fin 1) = 0 :=
  (by decide +kernel : ∀ t : Fin grid1.N, _)

theorem idx3 : ∀ t : Fin cfg1.N, win1_3.index t (0 : Fin 2) = t.val ∧ win1_3.index t (1 : Fin 2) = 0 :=
  (by decide +kernel : ∀ t : Fin grid1.N, win1_3.index t (0 : Fin 2) = t.val ∧ win1_3.index t (1 : Fin 2) = 0)

theorem xs3 : ∀ t : Fin cfg1.N, win1_3.xsize (grid1.coords t) (0 : Fin 2) = (if t.val < 64 then 128 else 1)
    ∧ win1_3.xsize (grid1.coords t) (1 : Fin 2) = 8193 :=
  (by decide +kernel : ∀ t : Fin grid1.N, win1_3.xsize (grid1.coords t) (0 : Fin 2) = (if t.val < 64 then 128 else 1)
    ∧ win1_3.xsize (grid1.coords t) (1 : Fin 2) = 8193)

theorem idx4 : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)

theorem xs4 : ∀ t : Fin cfg1.N, win1_4.xsize (grid1.coords t) (0 : Fin 2) = (if t.val < 64 then 128 else 1)
    ∧ win1_4.xsize (grid1.coords t) (1 : Fin 2) = 8193 :=
  (by decide +kernel : ∀ t : Fin grid1.N, win1_4.xsize (grid1.coords t) (0 : Fin 2) = (if t.val < 64 then 128 else 1)
    ∧ win1_4.xsize (grid1.coords t) (1 : Fin 2) = 8193)

/-! ## The specification's matrices, tile by tile

Stated at an index q of the matrix given through the values of its coordinates. -/

/-- Rows 128 t … 128 t + 127 (t < 64) of the lower matrix: the slopes of those rows on the diagonal. -/
theorem lowMatPad_tile (p : Vpad.Idx → F .f32) (x0 : Vec F S128 .f32) (t : Nat) (ht : t < 64)
    (hx : ∀ r : Fin 128, x0 (ix1 r) = p (ix1 (⟨128 * t + r.val, by have := r.isLt; omega⟩ : Fin 8320)))
    (r : Fin 128) (k : Fin 8193) (q : Mn.Idx) (hq0 : (q 0).val = 128 * t + r.val) (hq1 : (q 1).val = k.val) :
    (if 128 * t ≤ k.val ∧ k.val < 128 * t + 128 then (if r.val = k.val - 128 * t then x0 (ix1 r) else zeroF) else zeroF)
      = lowMatPad p q := by
  unfold lowMatPad
  have hr := r.isLt
  rw [if_pos (by omega : (q 0).val < 8192)]
  by_cases e : (q 1).val = (q 0).val
  · rw [if_pos e, if_pos (by omega), if_pos (by omega), hx r]
    exact congrArg (fun z : Fin 8320 => p (ix1 z)) (Fin.ext (by show 128 * t + r.val = (q 0).val; omega))
  · rw [if_neg e]
    by_cases hin : 128 * t ≤ k.val ∧ k.val < 128 * t + 128
    · rw [if_pos hin, if_neg (by omega)]
    · rw [if_neg hin]

/-- The same rows of the upper matrix. -/
theorem upMatPad_tile (p : Vpad.Idx → F .f32) (b : Vext.Idx → F .f32) (x1 : Vec F S128 .f32) (t : Nat) (ht : t < 64)
    (hx : ∀ r : Fin 128, x1 (ix1 r) = p (ix1 (⟨128 * t + r.val, by have := r.isLt; omega⟩ : Fin 8320)))
    (r : Fin 128) (k : Fin 8193) (q : Mn.Idx) (hq0 : (q 0).val = 128 * t + r.val) (hq1 : (q 1).val = k.val) :
    (if 128 * t ≤ k.val ∧ k.val < 128 * t + 128 then (if r.val = k.val - 128 * t then x1 (ix1 r) else zeroF) else zeroF)
      = upMatPad p b q := by
  unfold upMatPad
  have hr := r.isLt
  rw [if_pos (by omega : (q 0).val < 8192)]
  by_cases e : (q 1).val = (q 0).val
  · rw [if_pos e, if_pos (by omega), if_pos (by omega), hx r]
    exact congrArg (fun z : Fin 8320 => p (ix1 z)) (Fin.ext (by show 128 * t + r.val = (q 0).val; omega))
  · rw [if_neg e]
    by_cases hin : 128 * t ≤ k.val ∧ k.val < 128 * t + 128
    · rw [if_pos hin, if_neg (by omega)]
    · rw [if_neg hin]

/-- Row 8192 of the lower matrix: the corner. -/
theorem lowMatPad_last (p : Vpad.Idx → F .f32) (r : Fin 128) (hr0 : r.val = 0) (k : Fin 8193) (q : Mn.Idx)
    (hq0 : (q 0).val = 8192) (hq1 : (q 1).val = k.val) :
    (if r.val = 0 ∧ k.val = 8192 then oneF else zeroF) = lowMatPad p q := by
  unfold lowMatPad
  rw [if_neg (by omega : ¬(q 0).val < 8192)]
  by_cases e : (q 1).val = 8192
  · rw [if_pos e, if_pos ⟨hr0, by omega⟩]
  · rw [if_neg e, if_neg (fun h => e (by omega))]

/-- Row 8192 of the upper matrix: the biases, then the corner. -/
theorem upMatPad_last (p : Vpad.Idx → F .f32) (b : Vext.Idx → F .f32) (x2 : Vec F S8193 .f32)
    (hx : ∀ k : Fin 8193, x2 (ix1 k) = b (ix1 k))
    (r : Fin 128) (hr0 : r.val = 0) (k : Fin 8193) (q : Mn.Idx) (hq0 : (q 0).val = 8192) (hq1 : (q 1).val = k.val) :
    (if k.val = 8192 then (if r.val = 0 then oneF else zeroF)
        else (if r.val = 0 ∧ k.val < 8192 then x2 (ix1 k) else zeroF)) = upMatPad p b q := by
  unfold upMatPad
  have hk := k.isLt
  rw [if_neg (by omega : ¬(q 0).val < 8192)]
  by_cases e : (q 1).val = 8192
  · rw [if_pos e, if_pos (by omega), if_pos hr0]
  · rw [if_neg e, if_neg (by omega), if_pos ⟨hr0, by omega⟩, hx k]
    exact congrArg (fun z : Fin 8193 => b (ix1 z)) (Fin.ext hq1.symm)

/-! ## The input blocks -/

/-- The lower slopes' window at point t reads entries 128 t + r of the padded vector. -/
theorem iblk0_apply (c : Dev nD) (t : Fin cfg1.N) (r : Fin 128) :
    iblk1 V c 0 t (ix1 r) = V c main_v1 (ix1 (⟨128 * t.val + r.val, by
      have h := lt_of_lt_of_eq t.isLt (show cfg1.N = 65 from N_1); have := r.isLt; omega⟩ : Fin 8320)) := by
  obtain ⟨-, e0, -⟩ := grid_facts t
  unfold iblk1
  rw [View.read_apply]
  show V c main_v1 (((cfg1.win 0).blk t).view.emb (ix1 r)) = _
  refine congrArg (V c main_v1) (funext fun a => Fin.ext ?_)
  match a with
  | ⟨0, _⟩ => show win1_0.index t 0 * 128 + 1 * r.val = 128 * t.val + r.val; rw [e0]; omega

/-- The upper slopes' window likewise. -/
theorem iblk1_apply (c : Dev nD) (t : Fin cfg1.N) (r : Fin 128) :
    iblk1 V c 1 t (ix1 r) = V c main_v2 (ix1 (⟨128 * t.val + r.val, by
      have h := lt_of_lt_of_eq t.isLt (show cfg1.N = 65 from N_1); have := r.isLt; omega⟩ : Fin 8320)) := by
  obtain ⟨-, -, e1, -⟩ := grid_facts t
  unfold iblk1
  rw [View.read_apply]
  show V c main_v2 (((cfg1.win 1).blk t).view.emb (ix1 r)) = _
  refine congrArg (V c main_v2) (funext fun a => Fin.ext ?_)
  match a with
  | ⟨0, _⟩ => show win1_1.index t 0 * 128 + 1 * r.val = 128 * t.val + r.val; rw [e1]; omega

/-- The bias window is the whole extended vector at every point. -/
theorem iblk2_apply (c : Dev nD) (t : Fin cfg1.N) (k : Fin 8193) :
    iblk1 V c 2 t (ix1 k) = V c main_v4 (ix1 k) := by
  obtain ⟨-, -, -, e2⟩ := grid_facts t
  unfold iblk1
  rw [View.read_apply]
  show V c main_v4 (((cfg1.win 2).blk t).view.emb (ix1 k)) = _
  refine congrArg (V c main_v4) (funext fun a => Fin.ext ?_)
  match a with
  | ⟨0, _⟩ => show win1_2.index t 0 * 8193 + 1 * k.val = k.val; rw [e2]; omega

/-! ## A point's write-back, over any staging contents

The write-back at point t moves the rows of the staging block that lie inside the matrix: entry (r, k) lands at
(128 t + r, k); all 128 rows move before the last point, row 0 only at it. So if a staging block X agrees with a
matrix G at every such pair of places, what is written back is block t of G. -/

theorem cut_eq_read3 (t : Fin cfg1.N) (X : Vec F S128x8193 .f32) (G : Mn.Idx → F .f32)
    (hX : ∀ (p : S128x8193.Idx) (q : Mn.Idx), (q 0).val = 128 * t.val + (p 0).val → (q 1).val = (p 1).val →
      (t.val < 64 ∨ (p 0).val = 0) → X p = G q) :
    (cfg1.win 3).cut (grid1.coords t) X = ((cfg1.win 3).blk t).view.read (Elt F) G := by
  funext j
  have h0 : (j (0 : Fin 2)).val < win1_3.xsize (grid1.coords t) (0 : Fin 2) := (j (0 : Fin 2)).isLt
  obtain ⟨x0, x1⟩ := xs3 t
  obtain ⟨i0, i1⟩ := idx3 t
  rw [x0] at h0
  have e0 := Pipeline.Window.rect_emb_val win1_3 t j (0 : Fin 2)
  have e1 := Pipeline.Window.rect_emb_val win1_3 t j (1 : Fin 2)
  rw [i0] at e0; rw [i1] at e1
  have s0 : win1_3.size (0 : Fin 2) = 128 := rfl
  have s1 : win1_3.size (1 : Fin 2) = 8193 := rfl
  rw [s0] at e0; rw [s1] at e1
  show X (win1_3.xinj (grid1.coords t) j) = G ((win1_3.rect t).emb j)
  refine hX _ _ ?_ ?_ ?_
  · show ((win1_3.rect t).emb j (0 : Fin 2)).val = 128 * t.val + (j (0 : Fin 2)).val
    omega
  · show ((win1_3.rect t).emb j (1 : Fin 2)).val = (j (1 : Fin 2)).val
    omega
  · show t.val < 64 ∨ (j (0 : Fin 2)).val = 0
    split at h0 <;> omega

theorem cut_eq_read4 (t : Fin cfg1.N) (X : Vec F S128x8193 .f32) (G : Mn.Idx → F .f32)
    (hX : ∀ (p : S128x8193.Idx) (q : Mn.Idx), (q 0).val = 128 * t.val + (p 0).val → (q 1).val = (p 1).val →
      (t.val < 64 ∨ (p 0).val = 0) → X p = G q) :
    (cfg1.win 4).cut (grid1.coords t) X = ((cfg1.win 4).blk t).view.read (Elt F) G := by
  funext j
  have h0 : (j (0 : Fin 2)).val < win1_4.xsize (grid1.coords t) (0 : Fin 2) := (j (0 : Fin 2)).isLt
  obtain ⟨x0, x1⟩ := xs4 t
  obtain ⟨i0, i1⟩ := idx4 t
  rw [x0] at h0
  have e0 := Pipeline.Window.rect_emb_val win1_4 t j (0 : Fin 2)
  have e1 := Pipeline.Window.rect_emb_val win1_4 t j (1 : Fin 2)
  rw [i0] at e0; rw [i1] at e1
  have s0 : win1_4.size (0 : Fin 2) = 128 := rfl
  have s1 : win1_4.size (1 : Fin 2) = 8193 := rfl
  rw [s0] at e0; rw [s1] at e1
  show X (win1_4.xinj (grid1.coords t) j) = G ((win1_4.rect t).emb j)
  refine hX _ _ ?_ ?_ ?_
  · show ((win1_4.rect t).emb j (0 : Fin 2)).val = 128 * t.val + (j (0 : Fin 2)).val
    omega
  · show ((win1_4.rect t).emb j (1 : Fin 2)).val = (j (1 : Fin 2)).val
    omega
  · show t.val < 64 ∨ (j (0 : Fin 2)).val = 0
    split at h0 <;> omega

/-! ## The 65 blocks cover the matrix: row r lies in block r / 128 -/

theorem covers3 (i : Mn.Idx) :
    ∃ t : Fin cfg1.N, (cfg1.win 3).flush t = true ∧ i ∈ ((cfg1.win 3).blk t).view.set := by
  have hN : cfg1.N = 65 := N_1
  have hi0 : (i 0).val < 8193 := idx2_lt0 i
  have hi1 : (i 1).val < 8193 := idx2_lt1 i
  obtain ⟨t, ht⟩ : ∃ t : Fin cfg1.N, t.val = (i 0).val / 128 := ⟨⟨(i 0).val / 128, by omega⟩, rfl⟩
  refine ⟨t, flush1_3 t, ?_⟩
  obtain ⟨x0, x1⟩ := xs3 t
  obtain ⟨i0, i1⟩ := idx3 t
  show i ∈ ((View.whole main_v5_0).slice (win1_3.rect t)).set
  rw [View.set_slice_whole, Rect.mem_set_unit]
  intro a
  match a with
  | ⟨0, _⟩ =>
    show win1_3.index t (0 : Fin 2) * 128 ≤ (i 0).val ∧ (i 0).val < win1_3.index t (0 : Fin 2) * 128 + win1_3.xsize (grid1.coords t) (0 : Fin 2)
    rw [i0, x0]
    split <;> omega
  | ⟨1, _⟩ =>
    show win1_3.index t (1 : Fin 2) * 8193 ≤ (i 1).val ∧ (i 1).val < win1_3.index t (1 : Fin 2) * 8193 + win1_3.xsize (grid1.coords t) (1 : Fin 2)
    rw [i1, x1]
    omega

theorem covers4 (i : Mn.Idx) :
    ∃ t : Fin cfg1.N, (cfg1.win 4).flush t = true ∧ i ∈ ((cfg1.win 4).blk t).view.set := by
  have hN : cfg1.N = 65 := N_1
  have hi0 : (i 0).val < 8193 := idx2_lt0 i
  have hi1 : (i 1).val < 8193 := idx2_lt1 i
  obtain ⟨t, ht⟩ : ∃ t : Fin cfg1.N, t.val = (i 0).val / 128 := ⟨⟨(i 0).val / 128, by omega⟩, rfl⟩
  refine ⟨t, flush1_4 t, ?_⟩
  obtain ⟨x0, x1⟩ := xs4 t
  obtain ⟨i0, i1⟩ := idx4 t
  show i ∈ ((View.whole main_v5_1).slice (win1_4.rect t)).set
  rw [View.set_slice_whole, Rect.mem_set_unit]
  intro a
  match a with
  | ⟨0, _⟩ =>
    show win1_4.index t (0 : Fin 2) * 128 ≤ (i 0).val ∧ (i 0).val < win1_4.index t (0 : Fin 2) * 128 + win1_4.xsize (grid1.coords t) (0 : Fin 2)
    rw [i0, x0]
    split <;> omega
  | ⟨1, _⟩ =>
    show win1_4.index t (1 : Fin 2) * 8193 ≤ (i 1).val ∧ (i 1).val < win1_4.index t (1 : Fin 2) * 8193 + win1_4.xsize (grid1.coords t) (1 : Fin 2)
    rw [i1, x1]
    omega

/-! ## What each point writes back, and the arrays the region leaves -/

theorem flushed_low (c : Dev nD) (t : Fin cfg1.N) :
    (dat1 V c).flushed 3 t = ((cfg1.win 3).blk t).view.read (Elt F) (lowMatPad (V c main_v1)) := by
  have hN : t.val < 65 := lt_of_lt_of_eq t.isLt (show cfg1.N = 65 from N_1)
  obtain ⟨eoff, -⟩ := grid_facts t
  show (cfg1.win 3).cut (grid1.coords t) ((dat1 V c).after 3 t) = _
  rw [after1_3]
  by_cases h0 : t.val < 64
  · have h1 : ¬t.val % 65 = 64 := by omega
    rw [outsAt1_A V c t h0 h1]
    dsimp only
    refine cut_eq_read3 t _ _ (fun p q hq0 hq1 _ => ?_)
    rw [eq_ix2 p]
    refine (stageA_low c (grid1.coords t) (ms1_0 t) (hs1_0 t) (ms1_1 t) (hs1_1 t) (ms1_2 t) (hs1_2 t) (ms1_3 t) (hs1_3 t)
      (ms1_4 t) (hs1_4 t) (iblk1 V c 0 t) (iblk1 V c 1 t) (iblk1 V c 2 t) ((hcond1_0 t).mpr h0)
      (fun h => h1 ((hcond1_1 t).mp h)) (p 0) (p 1)).trans ?_
    rw [eoff]
    exact lowMatPad_tile (V c main_v1) (iblk1 V c 0 t) t.val h0 (iblk0_apply V c t) (p 0) (p 1) q hq0 hq1
  · have h1 : t.val % 65 = 64 := by omega
    rw [outsAt1_B V c t h0 h1]
    dsimp only
    refine cut_eq_read3 t _ _ (fun p q hq0 hq1 hc => ?_)
    rw [eq_ix2 p]
    refine (stageB_low c (grid1.coords t) (ms1_0 t) (hs1_0 t) (ms1_1 t) (hs1_1 t) (ms1_2 t) (hs1_2 t) (ms1_3 t) (hs1_3 t)
      (ms1_4 t) (hs1_4 t) (iblk1 V c 0 t) (iblk1 V c 1 t) (iblk1 V c 2 t) (fun h => h0 ((hcond1_0 t).mp h))
      ((hcond1_1 t).mpr h1) (p 0) (p 1)).trans ?_
    have hp0 : (p 0).val = 0 := hc.resolve_left h0
    exact lowMatPad_last (V c main_v1) (p 0) hp0 (p 1) q (by omega) hq1

theorem flushed_up (c : Dev nD) (t : Fin cfg1.N) :
    (dat1 V c).flushed 4 t = ((cfg1.win 4).blk t).view.read (Elt F) (upMatPad (V c main_v2) (V c main_v4)) := by
  have hN : t.val < 65 := lt_of_lt_of_eq t.isLt (show cfg1.N = 65 from N_1)
  obtain ⟨eoff, -⟩ := grid_facts t
  show (cfg1.win 4).cut (grid1.coords t) ((dat1 V c).after 4 t) = _
  rw [after1_4]
  by_cases h0 : t.val < 64
  · have h1 : ¬t.val % 65 = 64 := by omega
    rw [outsAt1_A V c t h0 h1]
    dsimp only
    refine cut_eq_read4 t _ _ (fun p q hq0 hq1 _ => ?_)
    rw [eq_ix2 p]
    refine (stageA_up c (grid1.coords t) (ms1_0 t) (hs1_0 t) (ms1_1 t) (hs1_1 t) (ms1_2 t) (hs1_2 t) (ms1_3 t) (hs1_3 t)
      (ms1_4 t) (hs1_4 t) (iblk1 V c 0 t) (iblk1 V c 1 t) (iblk1 V c 2 t) ((hcond1_0 t).mpr h0)
      (fun h => h1 ((hcond1_1 t).mp h)) (p 0) (p 1)).trans ?_
    rw [eoff]
    exact upMatPad_tile (V c main_v2) (V c main_v4) (iblk1 V c 1 t) t.val h0 (iblk1_apply V c t) (p 0) (p 1) q hq0 hq1
  · have h1 : t.val % 65 = 64 := by omega
    rw [outsAt1_B V c t h0 h1]
    dsimp only
    refine cut_eq_read4 t _ _ (fun p q hq0 hq1 hc => ?_)
    rw [eq_ix2 p]
    refine (stageB_up c (grid1.coords t) (ms1_0 t) (hs1_0 t) (ms1_1 t) (hs1_1 t) (ms1_2 t) (hs1_2 t) (ms1_3 t) (hs1_3 t)
      (ms1_4 t) (hs1_4 t) (iblk1 V c 0 t) (iblk1 V c 1 t) (iblk1 V c 2 t) (fun h => h0 ((hcond1_0 t).mp h))
      ((hcond1_1 t).mpr h1) (p 0) (p 1)).trans ?_
    have hp0 : (p 0).val = 0 := hc.resolve_left h0
    exact upMatPad_last (V c main_v2) (V c main_v4) (iblk1 V c 2 t) (iblk2_apply V c t) (p 0) hp0 (p 1) q (by omega) hq1

/-- The lower matrix as region 1 leaves it: every point writes back its rows of it, and the points' blocks cover it. -/
theorem arr_low (c : Dev nD) : (dat1 V c).arrAt 3 cfg1.N = lowMatPad (V c main_v1) :=
  (dat1 V c).arrAt_eq_of_cover 3 (lowMatPad (V c main_v1)) (fun t _ => flushed_low V c t) covers3

/-- The upper matrix likewise. -/
theorem arr_up (c : Dev nD) : (dat1 V c).arrAt 4 cfg1.N = upMatPad (V c main_v2) (V c main_v4) :=
  (dat1 V c).arrAt_eq_of_cover 4 (upMatPad (V c main_v2) (V c main_v4)) (fun t _ => flushed_up V c t) covers4

end Cert.KernelIdeal.Region1
end
-- ==== Proof.Glue.lean ====
/-
  The buffers between the two kernels.

  The program is: the first kernel; five short stretches of host operations (a constant, the padding of the
  lower slopes from 8192 to 8320 entries, a constant, the padding of the upper slopes, and the upper biases
  extended by one zero entry); the second kernel. Each boundary between two of these has its own buffer
  contents, and each step changes only the buffers it writes. So a buffer read at the end, or at the second
  kernel's entry, is followed back step by step to where it was last written:

  * the three arguments, at the first kernel's entry, are the launch contents;
  * the two bound vectors are written by the first kernel and by nothing after it;
  * the two matrices are written by the second kernel;
  * a padded slope vector, read below 8192, is the first kernel's slope vector at the same position, and the
    extended bias vector, read below 8192, is the first kernel's bias vector there — the padding value and the
    appended entry are never looked at.
-/
import proofs.«133646_j47940424958601_2_alg».proof.Defs
import proofs.«133646_j47940424958601_2_alg».proof.Proof.Gen.KernelIdeal.Frame
import proofs.«133646_j47940424958601_2_alg».proof.Proof.Spec
import Idealize.ShloMosaic.Lib.Pipeline.Value
import Idealize.ShloMosaic.Lib.ValueIdx
import Idealize.ShloMosaic.Lib.KernelVsHost

noncomputable section
open Idealize.ShloMosaic Idealize.ShloMosaic.TcCoe Idealize.SL.Sem Idealize.ShloMosaic.ValueIdx
namespace Cert.KernelIdeal.Glue
open Cert.KernelIdeal Cert.KernelIdeal.Gen
variable {F : FTy → Type} [FloatOps F]

/-! ## One stretch of host operations, from any contents `W`

Stated over an arbitrary valuation `W`, so that nothing here depends on how the contents at a boundary came
about; the boundaries are substituted afterwards. -/

section Stretches
variable (W : Valuation τ sig (Elt F))

/-- The first stretch writes one integer constant and nothing else. -/
theorem keep1 (r : Ref sig .tc) (h : r ≠ main_c) :
    StableHlo.after (hostOps1 (F := F)) W (Proc.devRef .tc r) = W (Proc.devRef .tc r) :=
  StableHlo.after_of_forall_not_mem (b := Proc.devRef .tc r) _ _ (List.forall_iff_forall_mem.mp (by
    simp only [hostOps1, List.Forall, StableHlo.nullary_writes, StableHlo.unary_writes, StableHlo.binary_writes, Finset.mem_singleton]
    exact StableHlo.devRef_ne_of_ne h))

/-- The second stretch writes the padding value and the padded lower slopes. -/
theorem keep1_1 (r : Ref sig .tc) (h1 : r ≠ main_call0_v0) (h2 : r ≠ main_v1) :
    StableHlo.after (hostOps1_1 (F := F)) W (Proc.devRef .tc r) = W (Proc.devRef .tc r) :=
  StableHlo.after_of_forall_not_mem (b := Proc.devRef .tc r) _ _ (List.forall_iff_forall_mem.mp (by
    simp only [hostOps1_1, List.Forall, StableHlo.nullary_writes, StableHlo.unary_writes, StableHlo.binary_writes, Finset.mem_singleton]
    exact ⟨StableHlo.devRef_ne_of_ne h1, StableHlo.devRef_ne_of_ne h2⟩))

/-- The third stretch writes one integer constant. -/
theorem keep1_2 (r : Ref sig .tc) (h : r ≠ main_c_0) :
    StableHlo.after (hostOps1_2 (F := F)) W (Proc.devRef .tc r) = W (Proc.devRef .tc r) :=
  StableHlo.after_of_forall_not_mem (b := Proc.devRef .tc r) _ _ (List.forall_iff_forall_mem.mp (by
    simp only [hostOps1_2, List.Forall, StableHlo.nullary_writes, StableHlo.unary_writes, StableHlo.binary_writes, Finset.mem_singleton]
    exact StableHlo.devRef_ne_of_ne h))

/-- The fourth stretch writes the padding value and the padded upper slopes. -/
theorem keep1_3 (r : Ref sig .tc) (h1 : r ≠ main_call1_v0) (h2 : r ≠ main_v2) :
    StableHlo.after (hostOps1_3 (F := F)) W (Proc.devRef .tc r) = W (Proc.devRef .tc r) :=
  StableHlo.after_of_forall_not_mem (b := Proc.devRef .tc r) _ _ (List.forall_iff_forall_mem.mp (by
    simp only [hostOps1_3, List.Forall, StableHlo.nullary_writes, StableHlo.unary_writes, StableHlo.binary_writes, Finset.mem_singleton]
    exact ⟨StableHlo.devRef_ne_of_ne h1, StableHlo.devRef_ne_of_ne h2⟩))

/-- The fifth stretch writes a zero, its one-entry vector, and the extended upper biases. -/
theorem keep1_4 (r : Ref sig .tc) (h1 : r ≠ main_cst) (h2 : r ≠ main_v3) (h3 : r ≠ main_v4) :
    StableHlo.after (hostOps1_4 (F := F)) W (Proc.devRef .tc r) = W (Proc.devRef .tc r) :=
  StableHlo.after_of_forall_not_mem (b := Proc.devRef .tc r) _ _ (List.forall_iff_forall_mem.mp (by
    simp only [hostOps1_4, List.Forall, StableHlo.nullary_writes, StableHlo.unary_writes, StableHlo.binary_writes, Finset.mem_singleton]
    exact ⟨StableHlo.devRef_ne_of_ne h1, StableHlo.devRef_ne_of_ne h2, StableHlo.devRef_ne_of_ne h3⟩))

/-- A position below 8192 of a vector padded only at its end (no low padding, no interior padding) lies inside
    the operand, at the same position. -/
theorem inside (k : Fin 8192) (a : Fin S8192.rank) :
    ((ix1 (⟨k.val, by omega⟩ : Fin 8320) : S8320.Idx) (a.cast pads_S8192_S8320_01280.1)).val
      = (![0] : Fin 1 → Nat) a + ((ix1 k : S8192.Idx) a).val * ((![0] : Fin 1 → Nat) a + 1) := by
  match a with
  | ⟨0, _⟩ => show k.val = 0 + k.val * (0 + 1); omega

/-- The padded lower slopes, below 8192, are the lower slopes. -/
theorem padded1 (k : Fin 8192) :
    StableHlo.after (hostOps1_1 (F := F)) W (Proc.devRef .tc main_v1) (ix1 ⟨k.val, by omega⟩)
      = W (Proc.devRef .tc main_v0_0) (ix1 k) := by
  after_results
  exact pad_apply_of_inside ![0] ![128] ![0] _ _ pads_S8192_S8320_01280 h_S_ _ (ix1 k) (inside k)

/-- The padded upper slopes, below 8192, are the upper slopes. -/
theorem padded2 (k : Fin 8192) :
    StableHlo.after (hostOps1_3 (F := F)) W (Proc.devRef .tc main_v2) (ix1 ⟨k.val, by omega⟩)
      = W (Proc.devRef .tc main_v0_1) (ix1 k) := by
  after_results
  exact pad_apply_of_inside ![0] ![128] ![0] _ _ pads_S8192_S8320_01280 h_S_ _ (ix1 k) (inside k)

/-- The extended upper biases, below 8192, are the upper biases: the position falls in the first of the two
    concatenated pieces. -/
theorem extended (k : Fin 8192) :
    StableHlo.after (hostOps1_4 (F := F)) W (Proc.devRef .tc main_v4) (ix1 ⟨k.val, by omega⟩)
      = W (Proc.devRef .tc main_v0_2) (ix1 k) := by
  after_results
  exact concatenate_pair_apply_left (t := S8193) (s₁ := S8192) (s₂ := S1) (0 : Fin 1) _ _ concatenates_S8192_S1_S8193_d0 _ rfl (ix1 k) (fun b => by
    match b with
    | ⟨0, _⟩ => rfl)

end Stretches

/-! ## The walks -/

variable (m : (ℓ : Loc nD τ sig) → Buf (Elt F) ℓ) (ρ : Dev nD → PrngReg)

/-- At the first kernel's entry the arguments hold the launch contents. -/
theorem entry0_arg0 (c : Dev nD) : V0 m ρ c main_arg0 = m ((c : Thread nD τ).loc main_arg0) := rfl
theorem entry0_arg1 (c : Dev nD) : V0 m ρ c main_arg1 = m ((c : Thread nD τ).loc main_arg1) := rfl
theorem entry0_arg2 (c : Dev nD) : V0 m ρ c main_arg2 = m ((c : Thread nD τ).loc main_arg2) := rfl

/-- The two matrices are the second kernel's result arrays. -/
theorem exit_low (c : Dev nD) : W7 m ρ c (Proc.devRef .tc main_v5_0) = (dat1 (V6 m ρ) c).arrAt 3 cfg1.N :=
  W7_arr m ρ c 3
theorem exit_up (c : Dev nD) : W7 m ρ c (Proc.devRef .tc main_v5_1) = (dat1 (V6 m ρ) c).arrAt 4 cfg1.N :=
  W7_arr m ρ c 4

/-- The concrete lower bounds are the first kernel's fourth result: nothing after it writes that buffer. -/
theorem exit_conc_low (c : Dev nD) : W7 m ρ c (Proc.devRef .tc main_v0_3) = (dat0 (V0 m ρ) c).arrAt 6 cfg0.N :=
  calc W7 m ρ c (Proc.devRef .tc main_v0_3)
    _ = W6 m ρ c (Proc.devRef .tc main_v0_3) := W7_of_ne m ρ c main_v0_3 (by decide)
    _ = W5 m ρ c (Proc.devRef .tc main_v0_3) := keep1_4 (W5 m ρ c) main_v0_3 (by decide) (by decide) (by decide)
    _ = W4 m ρ c (Proc.devRef .tc main_v0_3) := keep1_3 (W4 m ρ c) main_v0_3 (by decide) (by decide)
    _ = W3 m ρ c (Proc.devRef .tc main_v0_3) := keep1_2 (W3 m ρ c) main_v0_3 (by decide)
    _ = W2 m ρ c (Proc.devRef .tc main_v0_3) := keep1_1 (W2 m ρ c) main_v0_3 (by decide) (by decide)
    _ = W1 m ρ c (Proc.devRef .tc main_v0_3) := keep1 (W1 m ρ c) main_v0_3 (by decide)
    _ = (dat0 (V0 m ρ) c).arrAt 6 cfg0.N := W1_arr m ρ c 6

/-- The concrete upper bounds are the first kernel's fifth result. -/
theorem exit_conc_up (c : Dev nD) : W7 m ρ c (Proc.devRef .tc main_v0_4) = (dat0 (V0 m ρ) c).arrAt 7 cfg0.N :=
  calc W7 m ρ c (Proc.devRef .tc main_v0_4)
    _ = W6 m ρ c (Proc.devRef .tc main_v0_4) := W7_of_ne m ρ c main_v0_4 (by decide)
    _ = W5 m ρ c (Proc.devRef .tc main_v0_4) := keep1_4 (W5 m ρ c) main_v0_4 (by decide) (by decide) (by decide)
    _ = W4 m ρ c (Proc.devRef .tc main_v0_4) := keep1_3 (W4 m ρ c) main_v0_4 (by decide) (by decide)
    _ = W3 m ρ c (Proc.devRef .tc main_v0_4) := keep1_2 (W3 m ρ c) main_v0_4 (by decide)
    _ = W2 m ρ c (Proc.devRef .tc main_v0_4) := keep1_1 (W2 m ρ c) main_v0_4 (by decide) (by decide)
    _ = W1 m ρ c (Proc.devRef .tc main_v0_4) := keep1 (W1 m ρ c) main_v0_4 (by decide)
    _ = (dat0 (V0 m ρ) c).arrAt 7 cfg0.N := W1_arr m ρ c 7

/-- The second kernel's first operand, below 8192: written by the second stretch as the padding of the first
    kernel's first result, which the first stretch leaves alone; untouched by the three stretches after. -/
theorem entry1_v1 (c : Dev nD) (k : Fin 8192) :
    V6 m ρ c main_v1 (ix1 ⟨k.val, by omega⟩) = (dat0 (V0 m ρ) c).arrAt 3 cfg0.N (ix1 k) := by
  have walk : W6 m ρ c (Proc.devRef .tc main_v1) = W3 m ρ c (Proc.devRef .tc main_v1) :=
    calc W6 m ρ c (Proc.devRef .tc main_v1)
      _ = W5 m ρ c (Proc.devRef .tc main_v1) := keep1_4 (W5 m ρ c) main_v1 (by decide) (by decide) (by decide)
      _ = W4 m ρ c (Proc.devRef .tc main_v1) := keep1_3 (W4 m ρ c) main_v1 (by decide) (by decide)
      _ = W3 m ρ c (Proc.devRef .tc main_v1) := keep1_2 (W3 m ρ c) main_v1 (by decide)
  have src : W2 m ρ c (Proc.devRef .tc main_v0_0) = (dat0 (V0 m ρ) c).arrAt 3 cfg0.N :=
    (keep1 (W1 m ρ c) main_v0_0 (by decide)).trans (W1_arr m ρ c 3)
  show W6 m ρ c (Proc.devRef .tc main_v1) (ix1 ⟨k.val, by omega⟩) = _
  rw [walk]
  exact (padded1 (W2 m ρ c) k).trans (congrFun src (ix1 k))

/-- The second kernel's second operand, below 8192: written by the fourth stretch as the padding of the first
    kernel's second result, which the three stretches before leave alone; untouched by the fifth. -/
theorem entry1_v2 (c : Dev nD) (k : Fin 8192) :
    V6 m ρ c main_v2 (ix1 ⟨k.val, by omega⟩) = (dat0 (V0 m ρ) c).arrAt 4 cfg0.N (ix1 k) := by
  have walk : W6 m ρ c (Proc.devRef .tc main_v2) = W5 m ρ c (Proc.devRef .tc main_v2) :=
    keep1_4 (W5 m ρ c) main_v2 (by decide) (by decide) (by decide)
  have src : W4 m ρ c (Proc.devRef .tc main_v0_1) = (dat0 (V0 m ρ) c).arrAt 4 cfg0.N :=
    calc W4 m ρ c (Proc.devRef .tc main_v0_1)
      _ = W3 m ρ c (Proc.devRef .tc main_v0_1) := keep1_2 (W3 m ρ c) main_v0_1 (by decide)
      _ = W2 m ρ c (Proc.devRef .tc main_v0_1) := keep1_1 (W2 m ρ c) main_v0_1 (by decide) (by decide)
      _ = W1 m ρ c (Proc.devRef .tc main_v0_1) := keep1 (W1 m ρ c) main_v0_1 (by decide)
      _ = (dat0 (V0 m ρ) c).arrAt 4 cfg0.N := W1_arr m ρ c 4
  show W6 m ρ c (Proc.devRef .tc main_v2) (ix1 ⟨k.val, by omega⟩) = _
  rw [walk]
  exact (padded2 (W4 m ρ c) k).trans (congrFun src (ix1 k))

/-- The second kernel's third operand, below 8192: written by the fifth stretch as the first kernel's third
    result followed by one more entry; the four stretches before leave that result alone. -/
theorem entry1_v4 (c : Dev nD) (k : Fin 8192) :
    V6 m ρ c main_v4 (ix1 ⟨k.val, by omega⟩) = (dat0 (V0 m ρ) c).arrAt 5 cfg0.N (ix1 k) := by
  have src : W5 m ρ c (Proc.devRef .tc main_v0_2) = (dat0 (V0 m ρ) c).arrAt 5 cfg0.N :=
    calc W5 m ρ c (Proc.devRef .tc main_v0_2)
      _ = W4 m ρ c (Proc.devRef .tc main_v0_2) := keep1_3 (W4 m ρ c) main_v0_2 (by decide) (by decide)
      _ = W3 m ρ c (Proc.devRef .tc main_v0_2) := keep1_2 (W3 m ρ c) main_v0_2 (by decide)
      _ = W2 m ρ c (Proc.devRef .tc main_v0_2) := keep1_1 (W2 m ρ c) main_v0_2 (by decide) (by decide)
      _ = W1 m ρ c (Proc.devRef .tc main_v0_2) := keep1 (W1 m ρ c) main_v0_2 (by decide)
      _ = (dat0 (V0 m ρ) c).arrAt 5 cfg0.N := W1_arr m ρ c 5
  show W6 m ρ c (Proc.devRef .tc main_v4) (ix1 ⟨k.val, by omega⟩) = _
  exact (extended (W5 m ρ c) k).trans (congrFun src (ix1 k))

end Cert.KernelIdeal.Glue
end
-- ==== Proof.LibScatterSet.lean ====
/-
  Reading a scatter whose body returns the update ("set") at one index of its result.

  A scatter walks over the update indices in row-major order; each one either lands on an index of the
  operand (its start, read off the scatter indices, plus its window coordinate) and overwrites the element
  there, or falls outside the operand and is dropped. For the body that returns the update, the element
  found at an index of the result is therefore

    * the operand's own element, when no update index lands there (a miss), and
    * the update of the LAST update index, in row-major order, that lands there (a hit) - in particular of
      the only one, when landing is injective.

  Both are instances of a statement about a left fold of "overwrite one place" steps over a list, proved
  first. The last theorem says when an update index lands on a given index of the operand, coordinate by
  coordinate, so that landing can be computed in a proof from the start and the window coordinate alone.
-/
import Idealize.ShloMosaic.PureOps
import Idealize.ShloMosaic.Lib.ValueIdx

namespace Cert.ScatterSet

open Idealize.ShloMosaic

section Fold

variable {ι κ α : Type}

/-- A left fold of steps none of which touches the place `i'` leaves the element at `i'` as it was:
    `land n` is the place step `n` writes (if any), and a step that does not write `i'` keeps it. -/
theorem foldl_miss (g : (κ → α) → ι → (κ → α)) (land : ι → Option κ) (i' : κ)
    (hmiss : ∀ r n, land n ≠ some i' → g r n i' = r i') :
    ∀ (l : List ι) (x : κ → α), (∀ n ∈ l, land n ≠ some i') → l.foldl g x i' = x i' := by
  intro l
  induction l with
  | nil => intro x _; rfl
  | cons n l ih =>
    intro x h
    rw [List.foldl_cons, ih (g x n) (fun m hm => h m (List.mem_cons_of_mem _ hm))]
    exact hmiss x n (h n (by simp))

/-- A left fold of overwriting steps, read at the place `i'`: if step `n` writes `val n` at `i'` and no
    step after it writes `i'`, the fold ends with `val n` there, whatever happened before. -/
theorem foldl_hit_last (g : (κ → α) → ι → (κ → α)) (land : ι → Option κ) (val : ι → α) (i' : κ)
    (hmiss : ∀ r n, land n ≠ some i' → g r n i' = r i')
    (hhit : ∀ r n, land n = some i' → g r n i' = val n)
    (l₁ l₂ : List ι) (n : ι) (x : κ → α) (hn : land n = some i')
    (hl : ∀ m ∈ l₂, land m ≠ some i') :
    (l₁ ++ n :: l₂).foldl g x i' = val n := by
  rw [List.foldl_append, List.foldl_cons, foldl_miss g land i' hmiss l₂ _ hl]
  exact hhit _ n hn

/-- The same over a list sorted by a relation `lt`: it is enough that no step `m` with `lt n m` writes
    the place `i'`. -/
theorem foldl_hit_of_pairwise (g : (κ → α) → ι → (κ → α)) (land : ι → Option κ) (val : ι → α) (i' : κ)
    (hmiss : ∀ r n, land n ≠ some i' → g r n i' = r i')
    (hhit : ∀ r n, land n = some i' → g r n i' = val n)
    (lt : ι → ι → Prop) (l : List ι) (hp : l.Pairwise lt) (n : ι) (hmem : n ∈ l) (x : κ → α)
    (hn : land n = some i') (hlater : ∀ m, lt n m → land m ≠ some i') :
    l.foldl g x i' = val n := by
  obtain ⟨l₁, l₂, rfl⟩ := List.append_of_mem hmem
  refine foldl_hit_last g land val i' hmiss hhit l₁ l₂ n x hn ?_
  intro m hm
  have h2 : (n :: l₂).Pairwise lt := (List.pairwise_append.1 hp).2.1
  exact hlater m ((List.pairwise_cons.1 h2).1 m hm)

end Fold

section Scatter

variable {s si u : Shape} {α : Type} {w : Nat}

/-- A MISS: an index of the operand on which no update index lands keeps the operand's element. -/
theorem scatter_set_miss (d : ScatterDims s si u) (x : s.Idx → α) (idx : IVec si w) (upd : u.Idx → α)
    (i' : s.Idx) (h : ∀ j, d.resultIdx? j idx ≠ some i') :
    Host.scatter d (fun _ b => b) x idx upd i' = x i' := by
  unfold Host.scatter
  refine foldl_miss _ (fun n => d.resultIdx? (u.rowMajor.symm n) idx) i' ?_ _ x (fun n _ => h _)
  intro r n hn
  dsimp only at hn ⊢
  generalize d.resultIdx? (u.rowMajor.symm n) idx = o at hn ⊢
  cases o with
  | none => rfl
  | some i =>
    have hne : i' ≠ i := fun e => hn (e ▸ rfl)
    dsimp only
    rw [if_neg hne]

/-- A HIT: if update index `j` lands on `i'` and no update index after `j` in row-major order does,
    the result holds `upd j` at `i'` (the later of two updates of one place wins). -/
theorem scatter_set_hit_last (d : ScatterDims s si u) (x : s.Idx → α) (idx : IVec si w) (upd : u.Idx → α)
    (i' : s.Idx) (j : u.Idx) (hj : d.resultIdx? j idx = some i')
    (hlater : ∀ j', u.rowMajor j < u.rowMajor j' → d.resultIdx? j' idx ≠ some i') :
    Host.scatter d (fun _ b => b) x idx upd i' = upd j := by
  unfold Host.scatter
  refine (foldl_hit_of_pairwise _ (fun n => d.resultIdx? (u.rowMajor.symm n) idx)
    (fun n => upd (u.rowMajor.symm n)) i' ?_ ?_ (· < ·) (List.finRange u.numel)
    (List.pairwise_lt_finRange _) (u.rowMajor j) (List.mem_finRange _) x ?_ ?_).trans ?_
  · intro r n hn
    dsimp only at hn ⊢
    generalize d.resultIdx? (u.rowMajor.symm n) idx = o at hn ⊢
    cases o with
    | none => rfl
    | some i =>
      have hne : i' ≠ i := fun e => hn (e ▸ rfl)
      dsimp only
      rw [if_neg hne]
  · intro r n hn
    dsimp only at hn ⊢
    rw [hn]
    dsimp only
    rw [if_pos rfl]
  · rw [Equiv.symm_apply_apply]
    exact hj
  · intro m hm
    refine hlater (u.rowMajor.symm m) ?_
    rw [Equiv.apply_symm_apply]
    exact hm
  · rw [Equiv.symm_apply_apply]

/-- A HIT when landing on `i'` is injective: the one update index that lands there supplies the element. -/
theorem scatter_set_hit (d : ScatterDims s si u) (x : s.Idx → α) (idx : IVec si w) (upd : u.Idx → α)
    (i' : s.Idx) (j : u.Idx) (hj : d.resultIdx? j idx = some i')
    (hinj : ∀ j', d.resultIdx? j' idx = some i' → j' = j) :
    Host.scatter d (fun _ b => b) x idx upd i' = upd j := by
  refine scatter_set_hit_last d x idx upd i' j hj ?_
  intro j' hlt hland
  rw [hinj j' hland] at hlt
  exact lt_irrefl _ hlt

/-- Where an update index lands, coordinate by coordinate: `j` lands on `i` exactly when on every axis
    the coordinate of `i` is the start of `j`'s window plus `j`'s window coordinate (both inside the
    operand then, because `i` is). -/
theorem resultIdx?_eq_some_iff (d : ScatterDims s si u) (j : u.Idx) (idx : IVec si w) (i : s.Idx) :
    d.resultIdx? j idx = some i ↔ ∀ a, ((i a).val : Int) = d.start j idx a + (d.window j a : Int) := by
  unfold ScatterDims.resultIdx?
  by_cases hc : ∀ a, 0 ≤ d.start j idx a + d.window j a ∧ d.start j idx a + d.window j a < s.size a
  · rw [dif_pos hc]
    constructor
    · intro h a
      have h1 := congrFun (Option.some.inj h) a
      have hv := congrArg Fin.val h1
      simp only at hv
      have := hc a
      omega
    · intro h
      congr 1
      funext a
      apply Fin.ext
      have := h a
      have := hc a
      simp only
      omega
  · rw [dif_neg hc]
    constructor
    · intro h; cases h
    · intro h
      exfalso
      apply hc
      intro a
      have := h a
      have := (i a).isLt
      omega

/-- No update index lands on `i` as soon as, for every update index, some coordinate of `i` differs from
    start plus window coordinate there. -/
theorem resultIdx?_ne_some (d : ScatterDims s si u) (j : u.Idx) (idx : IVec si w) (i : s.Idx) (a : Fin s.rank)
    (h : ((i a).val : Int) ≠ d.start j idx a + (d.window j a : Int)) : d.resultIdx? j idx ≠ some i :=
  fun e => h ((resultIdx?_eq_some_iff d j idx i).1 e a)

end Scatter

end Cert.ScatterSet
-- ==== Proof.RefMatrices.lean ====
/-
  The reference's two bound matrices, read entry by entry.

  The reference builds each matrix by writing into a zero matrix with scatters whose body returns the update:

    * a DIAGONAL scatter: update k of a length-8192 vector goes to the place (k, k); its index tensor has the
      two columns (k, k), each column being the counter 0, 1, .., 8191 passed through the wrap of negative
      indices (add 8193 where the index is negative), which changes nothing because the counter is never
      negative when read signed;
    * for the upper matrix, a ROW scatter: update j of the bias vector goes to the place (8192, 0 + j), the
      start (8192, 0) being a literal index pair and j a window coordinate along the columns;
    * a CORNER scatter: the single update 1.0 goes to the literal place (8192, 8192).

  For each of the three index patterns the start and the window coordinate of an update index are computed on
  the operand's two axes, which says where the update lands; landing is injective in all three, so an entry of
  the result is the one update that lands there, or else the operand's entry. Each stage is stated over an
  arbitrary operand and arbitrary updates, and the three are then chained and compared, case by case in the
  row and the column, with the specification's matrices.
-/
import proofs.«133646_j47940424958601_2_alg».proof.Defs
import proofs.«133646_j47940424958601_2_alg».proof.Proof.Gen.ReferenceIdeal.Read
import proofs.«133646_j47940424958601_2_alg».proof.Proof.Spec
import proofs.«133646_j47940424958601_2_alg».proof.Proof.LibScatterSet
import Idealize.ShloMosaic.Lib.Pipeline.Value
import Idealize.ShloMosaic.Lib.ValueIdx

noncomputable section
open Idealize.ShloMosaic Idealize.ShloMosaic.TcCoe Idealize.SL.Sem Idealize.ShloMosaic.ValueIdx
namespace Cert.ReferenceIdeal.RefValue
open Cert.ReferenceIdeal Cert.ReferenceIdeal.Gen Cert.ReferenceIdeal.Read Cert.Bounds Cert.ScatterSet
variable {F : FTy → Type} [FloatOps F]

/-- The diagonal scatter: 8192 scalar updates, each with an index pair of its own. -/
abbrev dDiag := scatter_S8193x8193_S8192x2_S8192_n_01_01_1
/-- The corner scatter: one scalar update at one index pair. -/
abbrev dCorner := scatter_S8193x8193_S2_S__n_01_01_0
/-- The row scatter: one index pair, the updates a window of 8192 entries along the columns. -/
abbrev dBias := scatter_S8193x8193_S2_S8192_0_0_01_0

/-- The diagonal scatter has no window axes: the window coordinate is 0 on both axes. -/
theorem diag_window (j : S8192.Idx) (a : Fin 2) : dDiag.window j a = 0 := by
  have hk : ∀ a : Fin 2, a ∉ dDiag.sKept := by decide
  unfold ScatterDims.window
  rw [dif_neg (hk a)]

/-- The diagonal scatter starts update `k` at the index pair in row `k` of the index tensor, read signed. -/
theorem diag_start (j : S8192.Idx) (idx : IVec S8192x2 32) (a : Fin 2) :
    dDiag.start j idx a = (idx (ix2 (j 0) a)).toInt := by
  have ha : ∀ a : Fin 2, a ∈ dDiag.scatterDimsToOperandDims := by decide
  unfold ScatterDims.start
  rw [dif_pos (ha a)]
  congr 2
  funext b
  refine Fin.ext ?_
  match a, b with
  | ⟨0, _⟩, ⟨0, _⟩ => rfl
  | ⟨0, _⟩, ⟨1, _⟩ => rfl
  | ⟨1, _⟩, ⟨0, _⟩ => rfl
  | ⟨1, _⟩, ⟨1, _⟩ => rfl

/-- The corner scatter has no window axes either. -/
theorem corner_window (j : S_.Idx) (a : Fin 2) : dCorner.window j a = 0 := by
  have hk : ∀ a : Fin 2, a ∉ dCorner.sKept := by decide
  unfold ScatterDims.window
  rw [dif_neg (hk a)]

/-- The corner scatter starts its one update at the index pair the index tensor holds, read signed. -/
theorem corner_start (j : S_.Idx) (idx : IVec S2 32) (a : Fin 2) :
    dCorner.start j idx a = (idx (ix1 a)).toInt := by
  have ha : ∀ a : Fin 2, a ∈ dCorner.scatterDimsToOperandDims := by decide
  unfold ScatterDims.start
  rw [dif_pos (ha a)]
  congr 2
  funext b
  refine Fin.ext ?_
  match a, b with
  | ⟨0, _⟩, ⟨0, _⟩ => rfl
  | ⟨1, _⟩, ⟨0, _⟩ => rfl

/-- The row scatter's window does not move along the rows. -/
theorem bias_window0 (j : S8192.Idx) : dBias.window j 0 = 0 := by
  have hk : (0 : Fin 2) ∉ dBias.sKept := by decide
  unfold ScatterDims.window
  rw [dif_neg hk]

/-- Along the columns the row scatter's window coordinate is the update's own position. -/
theorem bias_window1 (j : S8192.Idx) : dBias.window j 1 = (j 0).val := by
  have hk : (1 : Fin 2) ∈ dBias.sKept := by decide
  unfold ScatterDims.window
  rw [dif_pos hk]
  rfl

/-- The row scatter starts every update at the one index pair the index tensor holds, read signed. -/
theorem bias_start (j : S8192.Idx) (idx : IVec S2 32) (a : Fin 2) :
    dBias.start j idx a = (idx (ix1 a)).toInt := by
  have ha : ∀ a : Fin 2, a ∈ dBias.scatterDimsToOperandDims := by decide
  unfold ScatterDims.start
  rw [dif_pos (ha a)]
  congr 2
  funext b
  refine Fin.ext ?_
  match a, b with
  | ⟨0, _⟩, ⟨0, _⟩ => rfl
  | ⟨1, _⟩, ⟨0, _⟩ => rfl

section Stages
variable {α : Type}

/-- Landing on the entry `(r, c)` of a matrix, as two equations between integers: start plus window coordinate
    along the rows is `r`, along the columns `c`. -/
theorem lands2 {si u : Shape} {w : Nat} (d : ScatterDims S8193x8193 si u) (j : u.Idx) (idx : IVec si w) (r c : Fin 8193) :
    d.resultIdx? j idx = some (ix2 r c) ↔
      (r.val : Int) = d.start j idx (0 : Fin 2) + (d.window j (0 : Fin 2) : Int) ∧
      (c.val : Int) = d.start j idx (1 : Fin 2) + (d.window j (1 : Fin 2) : Int) := by
  rw [resultIdx?_eq_some_iff]
  constructor
  · intro h; exact ⟨h 0, h 1⟩
  · rintro ⟨h0, h1⟩ a
    match a with
    | ⟨0, _⟩ => exact h0
    | ⟨1, _⟩ => exact h1

/-- With index pairs `(k, k)`, update `k` of the diagonal scatter lands on `(r, c)` exactly when `r = k = c`. -/
theorem diag_lands (idx : IVec S8192x2 32)
    (hidx : ∀ (k : Fin 8192) (c : Fin 2), (idx (ix2 k c)).toInt = (k.val : Int))
    (k : Fin 8192) (r c : Fin 8193) :
    dDiag.resultIdx? (ix1 k) idx = some (ix2 r c) ↔ r.val = k.val ∧ c.val = k.val := by
  rw [lands2, diag_start, diag_start, diag_window, diag_window, hidx, hidx]
  constructor
  · rintro ⟨h0, h1⟩; omega
  · rintro ⟨h0, h1⟩; omega

/-- THE DIAGONAL STAGE: the result holds update `r` at `(r, r)` for `r < 8192` and the operand's entry elsewhere. -/
theorem diag_apply (x : S8193x8193.Idx → α) (idx : IVec S8192x2 32)
    (hidx : ∀ (k : Fin 8192) (c : Fin 2), (idx (ix2 k c)).toInt = (k.val : Int))
    (upd : S8192.Idx → α) (r c : Fin 8193) :
    Host.scatter dDiag (fun _ b => b) x idx upd (ix2 r c) =
      if h : r.val < 8192 ∧ c.val = r.val then upd (ix1 ⟨r.val, h.1⟩) else x (ix2 r c) := by
  by_cases h : r.val < 8192 ∧ c.val = r.val
  · rw [dif_pos h]
    refine scatter_set_hit dDiag x idx upd (ix2 r c) (ix1 ⟨r.val, h.1⟩) ?_ ?_
    · rw [diag_lands idx hidx]; exact ⟨rfl, h.2⟩
    · intro j' hj'
      obtain ⟨k, rfl⟩ : ∃ k : Fin 8192, j' = ix1 k := ⟨j' 0, eq_ix1 j'⟩
      rw [diag_lands idx hidx] at hj'
      congr 1
      exact Fin.ext hj'.1.symm
  · rw [dif_neg h]
    refine scatter_set_miss dDiag x idx upd (ix2 r c) ?_
    intro j hj
    obtain ⟨k, rfl⟩ : ∃ k : Fin 8192, j = ix1 k := ⟨j 0, eq_ix1 j⟩
    rw [diag_lands idx hidx] at hj
    apply h
    have := k.isLt
    exact ⟨by omega, by omega⟩

/-- With the index pair `(p, q)`, the corner scatter's update lands on `(r, c)` exactly when `r = p` and `c = q`. -/
theorem corner_lands (idx : IVec S2 32) (p q : Nat) (hp : (idx (ix1 (0 : Fin 2))).toInt = (p : Int))
    (hq : (idx (ix1 (1 : Fin 2))).toInt = (q : Int)) (j : S_.Idx) (r c : Fin 8193) :
    dCorner.resultIdx? j idx = some (ix2 r c) ↔ r.val = p ∧ c.val = q := by
  rw [lands2, corner_start, corner_start, corner_window, corner_window, hp, hq]
  constructor
  · rintro ⟨h0, h1⟩; omega
  · rintro ⟨h0, h1⟩; omega

/-- THE CORNER STAGE: the result holds the update at `(p, q)` and the operand's entry elsewhere. -/
theorem corner_apply (x : S8193x8193.Idx → α) (idx : IVec S2 32) (p q : Nat)
    (hp : (idx (ix1 (0 : Fin 2))).toInt = (p : Int)) (hq : (idx (ix1 (1 : Fin 2))).toInt = (q : Int))
    (upd : S_.Idx → α) (r c : Fin 8193) :
    Host.scatter dCorner (fun _ b => b) x idx upd (ix2 r c) =
      if r.val = p ∧ c.val = q then upd ix0 else x (ix2 r c) := by
  by_cases h : r.val = p ∧ c.val = q
  · rw [if_pos h]
    refine scatter_set_hit dCorner x idx upd (ix2 r c) ix0 ?_ ?_
    · rw [corner_lands idx p q hp hq]; exact h
    · intro j' _
      exact eq_ix0 j'
  · rw [if_neg h]
    refine scatter_set_miss dCorner x idx upd (ix2 r c) ?_
    intro j hj
    rw [corner_lands idx p q hp hq] at hj
    exact h hj

/-- With the index pair `(8192, 0)`, update `k` of the row scatter lands on `(r, c)` exactly when `r = 8192` and
    `c = k`. -/
theorem bias_lands (idx : IVec S2 32) (hp : (idx (ix1 (0 : Fin 2))).toInt = 8192)
    (hq : (idx (ix1 (1 : Fin 2))).toInt = 0) (k : Fin 8192) (r c : Fin 8193) :
    dBias.resultIdx? (ix1 k) idx = some (ix2 r c) ↔ r.val = 8192 ∧ c.val = k.val := by
  rw [lands2, bias_start, bias_start, bias_window0, bias_window1, hp, hq]
  constructor
  · rintro ⟨h0, h1⟩
    have : ((ix1 k : S8192.Idx) 0).val = k.val := rfl
    omega
  · rintro ⟨h0, h1⟩
    have : ((ix1 k : S8192.Idx) 0).val = k.val := rfl
    omega

/-- THE ROW STAGE: the result holds update `c` at `(8192, c)` for `c < 8192` and the operand's entry elsewhere. -/
theorem bias_apply (x : S8193x8193.Idx → α) (idx : IVec S2 32) (hp : (idx (ix1 (0 : Fin 2))).toInt = 8192)
    (hq : (idx (ix1 (1 : Fin 2))).toInt = 0) (upd : S8192.Idx → α) (r c : Fin 8193) :
    Host.scatter dBias (fun _ b => b) x idx upd (ix2 r c) =
      if h : r.val = 8192 ∧ c.val < 8192 then upd (ix1 ⟨c.val, h.2⟩) else x (ix2 r c) := by
  by_cases h : r.val = 8192 ∧ c.val < 8192
  · rw [dif_pos h]
    refine scatter_set_hit dBias x idx upd (ix2 r c) (ix1 ⟨c.val, h.2⟩) ?_ ?_
    · rw [bias_lands idx hp hq]; exact ⟨h.1, rfl⟩
    · intro j' hj'
      obtain ⟨k, rfl⟩ : ∃ k : Fin 8192, j' = ix1 k := ⟨j' 0, eq_ix1 j'⟩
      rw [bias_lands idx hp hq] at hj'
      congr 1
      exact Fin.ext hj'.2.symm
  · rw [dif_neg h]
    refine scatter_set_miss dBias x idx upd (ix2 r c) ?_
    intro j hj
    obtain ⟨k, rfl⟩ : ∃ k : Fin 8192, j = ix1 k := ⟨j 0, eq_ix1 j⟩
    rw [bias_lands idx hp hq] at hj
    apply h
    have := k.isLt
    exact ⟨hj.1, by omega⟩

end Stages

/-! ### The index tensors' entries, as integers -/

/-- A small counter value reads back as itself when its 32-bit word is read signed. -/
theorem toInt_ofNat_small (k : Nat) (hk : k < 8193) : (BitVec.ofNat 32 k).toInt = (k : Int) := by
  rw [BitVec.toInt_eq_toNat_cond, BitVec.toNat_ofNat]
  have h1 : k % 2 ^ 32 = k := Nat.mod_eq_of_lt (by omega)
  rw [h1, if_pos (by omega)]

/-- The wrap of negative indices leaves a counter value below 8192 as it is: read signed it is not negative. -/
theorem wrap_eq (k : Nat) (hk : k < 8192) :
    Scalar.select (IntOp.cmpi .slt (BitVec.ofNat 32 k) 0#32) (IntOp.addi (BitVec.ofNat 32 k) 8193#32)
      (BitVec.ofNat 32 k) = BitVec.ofNat 32 k := by
  have h : IntOp.cmpi .slt (BitVec.ofNat 32 k) 0#32 = 0#1 := by
    unfold IntOp.cmpi
    have hs : (BitVec.ofNat 32 k).slt 0#32 = false := by
      unfold BitVec.slt
      rw [toInt_ofNat_small k (by omega)]
      simp
    simp only [hs]
    rfl
  rw [h, select_zero]

/-- Two one-entry vectors joined: position 0 is the first vector's entry. -/
theorem concat11_left (a b : IVec S1 32) (h : Shape.Concatenates [S1, S1] S2 0) :
    concatenate S2 0 [⟨S1, a⟩, ⟨S1, b⟩] h (ix1 (0 : Fin 2)) = a (ix1 (0 : Fin 1)) :=
  concatenate_pair_apply_left (0 : Fin 1) a b h (ix1 (0 : Fin 2)) rfl (ix1 (0 : Fin 1))
    (fun b => match b with | ⟨0, _⟩ => rfl)

/-- Two one-entry vectors joined: position 1 is the second vector's entry. -/
theorem concat11_right (a b : IVec S1 32) (h : Shape.Concatenates [S1, S1] S2 0) :
    concatenate S2 0 [⟨S1, a⟩, ⟨S1, b⟩] h (ix1 (1 : Fin 2)) = b (ix1 (0 : Fin 1)) :=
  concatenate_pair_apply_right (0 : Fin 1) a b h (ix1 (1 : Fin 2)) rfl rfl (ix1 (0 : Fin 1))
    (fun b hb => match b, hb with | ⟨0, _⟩, hb => absurd rfl hb) rfl

/-! ### The reference's own index tensors -/

/-- The first column of the lower matrix's diagonal indices is the counter. -/
theorem v36_eq (i : S8192.Idx) : val_main_v36 (F := F) i = BitVec.ofNat 32 (i 0).val := by
  rw [val_main_v36_apply, val_main_v33_apply, val_main_v35_apply, val_main_v30_apply, val_main_v32_apply,
    val_main_c_apply, val_main_v34_apply, val_main_c_16_apply]
  exact wrap_eq _ (i 0).isLt

/-- The second column of the lower matrix's diagonal indices is the counter. -/
theorem v41_eq (i : S8192.Idx) : val_main_v41 (F := F) i = BitVec.ofNat 32 (i 0).val := by
  rw [val_main_v41_apply, val_main_v38_apply, val_main_v40_apply, val_main_v30_apply, val_main_v37_apply,
    val_main_c_17_apply, val_main_v39_apply, val_main_c_18_apply]
  exact wrap_eq _ (i 0).isLt

/-- The first column of the upper matrix's diagonal indices is the counter. -/
theorem v55_eq (i : S8192.Idx) : val_main_v55 (F := F) i = BitVec.ofNat 32 (i 0).val := by
  rw [val_main_v55_apply, val_main_v52_apply, val_main_v54_apply, val_main_v30_apply, val_main_v51_apply,
    val_main_c_23_apply, val_main_v53_apply, val_main_c_24_apply]
  exact wrap_eq _ (i 0).isLt

/-- The second column of the upper matrix's diagonal indices is the counter. -/
theorem v60_eq (i : S8192.Idx) : val_main_v60 (F := F) i = BitVec.ofNat 32 (i 0).val := by
  rw [val_main_v60_apply, val_main_v57_apply, val_main_v59_apply, val_main_v30_apply, val_main_v56_apply,
    val_main_c_25_apply, val_main_v58_apply, val_main_c_26_apply]
  exact wrap_eq _ (i 0).isLt

/-- Two one-column tensors side by side: column 0 is the first, column 1 the second. -/
theorem concat_cols (a b : IVec S8192x1 32) (h : Shape.Concatenates [S8192x1, S8192x1] S8192x2 1)
    (k : Fin 8192) (c : Fin 2) :
    concatenate S8192x2 1 [⟨S8192x1, a⟩, ⟨S8192x1, b⟩] h (ix2 k c) =
      if c.val = 0 then a (ix2 k (0 : Fin 1)) else b (ix2 k (0 : Fin 1)) := by
  match c with
  | ⟨0, _⟩ =>
    rw [if_pos rfl]
    exact concatenate_pair_apply_left (1 : Fin 2) a b h (ix2 k (0 : Fin 2)) rfl (ix2 k (0 : Fin 1))
      (fun b => match b with | ⟨0, _⟩ => rfl | ⟨1, _⟩ => rfl)
  | ⟨1, _⟩ =>
    rw [if_neg (by simp)]
    exact concatenate_pair_apply_right (1 : Fin 2) a b h (ix2 k (1 : Fin 2)) rfl rfl (ix2 k (0 : Fin 1))
      (fun b hb => match b, hb with | ⟨0, _⟩, _ => rfl | ⟨1, _⟩, hb => absurd rfl hb) rfl

/-- Row `k` of the lower matrix's diagonal index tensor is the pair `(k, k)`. -/
theorem v44_toInt (k : Fin 8192) (c : Fin 2) : (val_main_v44 (F := F) (ix2 k c)).toInt = (k.val : Int) := by
  unfold val_main_v44
  rw [concat_cols]
  split
  · rw [val_main_v42_apply, v36_eq]; exact toInt_ofNat_small k.val (by omega)
  · rw [val_main_v43_apply, v41_eq]; exact toInt_ofNat_small k.val (by omega)

/-- Row `k` of the upper matrix's diagonal index tensor is the pair `(k, k)`. -/
theorem v63_toInt (k : Fin 8192) (c : Fin 2) : (val_main_v63 (F := F) (ix2 k c)).toInt = (k.val : Int) := by
  unfold val_main_v63
  rw [concat_cols]
  split
  · rw [val_main_v61_apply, v55_eq]; exact toInt_ofNat_small k.val (by omega)
  · rw [val_main_v62_apply, v60_eq]; exact toInt_ofNat_small k.val (by omega)

/-- The lower matrix's corner index pair is `(8192, 8192)`: its row. -/
theorem v48_0 : (val_main_v48 (F := F) (ix1 (0 : Fin 2))).toInt = ((8192 : Nat) : Int) := by
  unfold val_main_v48
  rw [concat11_left, val_main_v46_apply, val_main_c_19_apply]; rfl
/-- The lower matrix's corner index pair is `(8192, 8192)`: its column. -/
theorem v48_1 : (val_main_v48 (F := F) (ix1 (1 : Fin 2))).toInt = ((8192 : Nat) : Int) := by
  unfold val_main_v48
  rw [concat11_right, val_main_v47_apply, val_main_c_20_apply]; rfl
/-- The upper matrix's corner index pair is `(8192, 8192)`: its row. -/
theorem v71_0 : (val_main_v71 (F := F) (ix1 (0 : Fin 2))).toInt = ((8192 : Nat) : Int) := by
  unfold val_main_v71
  rw [concat11_left, val_main_v69_apply, val_main_c_29_apply]; rfl
/-- The upper matrix's corner index pair is `(8192, 8192)`: its column. -/
theorem v71_1 : (val_main_v71 (F := F) (ix1 (1 : Fin 2))).toInt = ((8192 : Nat) : Int) := by
  unfold val_main_v71
  rw [concat11_right, val_main_v70_apply, val_main_c_30_apply]; rfl
/-- The bias row's index pair is `(8192, 0)`: its row. -/
theorem v67_0 : (val_main_v67 (F := F) (ix1 (0 : Fin 2))).toInt = 8192 := by
  unfold val_main_v67
  rw [concat11_left, val_main_v65_apply, val_main_c_27_apply]; rfl
/-- The bias row's index pair is `(8192, 0)`: its column. -/
theorem v67_1 : (val_main_v67 (F := F) (ix1 (1 : Fin 2))).toInt = 0 := by
  unfold val_main_v67
  rw [concat11_right, val_main_v66_apply, val_main_c_28_apply]; rfl

/-- THE LOWER MATRIX of the reference is the specification's, built from the reference's lower slopes. -/
theorem ref_low (x0 x1 x2 : (⟨S8192, .f32⟩ : BufTy).Contents (Elt F)) :
    val_main_v49 (F := F) x0 x1 x2 = lowMat (val_main_v18 (F := F) x0 x1 x2) := by
  funext i
  obtain ⟨r, c, rfl⟩ : ∃ (r c : Fin 8193), i = ix2 r c := ⟨i 0, i 1, eq_ix2 i⟩
  unfold val_main_v49 val_main_v45
  generalize val_main_v18 (F := F) x0 x1 x2 = dl
  rw [corner_apply _ _ 8192 8192 v48_0 v48_1, diag_apply _ _ v44_toInt, val_main_v31_apply,
    val_main_cst_15_apply, val_main_cst_21_apply]
  show _ = if h : r.val < 8192 then (if c.val = r.val then dl (ix1 ⟨r.val, h⟩) else zeroF)
    else (if c.val = 8192 then oneF else zeroF)
  have hr := r.isLt
  by_cases h1 : r.val < 8192
  · rw [if_neg (show ¬(r.val = 8192 ∧ c.val = 8192) by omega), dif_pos h1]
    by_cases h2 : c.val = r.val
    · rw [dif_pos ⟨h1, h2⟩, if_pos h2]
    · rw [dif_neg (fun h => h2 h.2), if_neg h2]
  · rw [dif_neg h1]
    by_cases h2 : c.val = 8192
    · rw [if_pos ⟨by omega, h2⟩, if_pos h2]
    · rw [if_neg (fun h => h2 h.2), dif_neg (fun h => h1 h.1), if_neg h2]

/-- THE UPPER MATRIX of the reference is the specification's, built from the reference's upper slopes and biases. -/
theorem ref_up (x0 x1 : (⟨S8192, .f32⟩ : BufTy).Contents (Elt F)) :
    val_main_v72 (F := F) x0 x1 = upMat (val_main_v20 (F := F) x0 x1) (val_main_v23 (F := F) x0 x1) := by
  funext i
  obtain ⟨r, c, rfl⟩ : ∃ (r c : Fin 8193), i = ix2 r c := ⟨i 0, i 1, eq_ix2 i⟩
  unfold val_main_v72 val_main_v68 val_main_v64
  generalize val_main_v20 (F := F) x0 x1 = du
  generalize val_main_v23 (F := F) x0 x1 = bu
  rw [corner_apply _ _ 8192 8192 v71_0 v71_1, bias_apply _ _ v67_0 v67_1, diag_apply _ _ v63_toInt,
    val_main_v50_apply, val_main_cst_22_apply, val_main_cst_31_apply]
  show _ = if h : r.val < 8192 then (if c.val = r.val then du (ix1 ⟨r.val, h⟩) else zeroF)
    else (if h' : c.val < 8192 then bu (ix1 ⟨c.val, h'⟩) else oneF)
  have hr := r.isLt
  have hc := c.isLt
  by_cases h1 : r.val < 8192
  · rw [if_neg (show ¬(r.val = 8192 ∧ c.val = 8192) by omega),
      dif_neg (show ¬(r.val = 8192 ∧ c.val < 8192) by omega), dif_pos h1]
    by_cases h2 : c.val = r.val
    · rw [dif_pos ⟨h1, h2⟩, if_pos h2]
    · rw [dif_neg (fun h => h2 h.2), if_neg h2]
  · rw [dif_neg h1]
    by_cases h2 : c.val < 8192
    · rw [if_neg (show ¬(r.val = 8192 ∧ c.val = 8192) by omega),
        dif_pos (show r.val = 8192 ∧ c.val < 8192 from ⟨by omega, h2⟩), dif_pos h2]
    · rw [if_pos (show r.val = 8192 ∧ c.val = 8192 from ⟨by omega, by omega⟩), dif_neg h2]
-- ==== Proof.lean ====
/-
  The certificate of the ReLU relaxation bounds: a Pallas program of two calls against its jnp reference, equal
  over the extended reals.

  From the pre-activation bounds l ≤ u of 8192 neurons and their slope parameters, both programs return the
  concrete bounds of the ReLU's output (two vectors) and the two (8193 x 8193) matrices of its linear relaxation
  in homogeneous coordinates: a diagonal of slopes, a last row of biases, and the corner 1 (Proof/Spec.lean).

  The kernel program computes five vectors entry by entry in a first call (the two slopes, the bias, the two
  concrete bounds), pads the slopes to 65 tiles of 128 rows and appends one entry to the bias on the host, and in
  a second call writes the matrices one row tile at a time: a tile of rows below 8192 is zero but for the 128 x 128
  diagonal block at its own column offset, and the last tile, which overhangs the arrays, contributes row 8192
  only. The reference computes the same five vectors and places them in zero matrices by scatters at the index
  pairs (k, k), (8192, 0 + j) and (8192, 8192), which are pairwise distinct.

  What each part shows: Proof/KernelRun.lean — the kernel program's run with its results named at the last
  boundary of the generated frame; Proof/Region0.lean, Proof/Region1.lean — what each call's write-backs leave,
  for any contents at the call's entry; Proof/Glue.lean — each buffer followed between the boundaries;
  Proof/RefMatrices.lean over Proof/LibScatterSet.lean — the reference's scatters read at an index;
  Proof/Pointwise.lean — the five vectors agree entry by entry (the only arithmetic fact used: 0 - x = -x).
  No finiteness of the inputs is needed: the two sides are the same function of any extended reals.
-/
import proofs.«133646_j47940424958601_2_alg».proof.Defs
import proofs.«133646_j47940424958601_2_alg».proof.Proof.Gen.Kernel
import proofs.«133646_j47940424958601_2_alg».proof.Proof.Gen.Kernel.Skeleton
import proofs.«133646_j47940424958601_2_alg».proof.Proof.Gen.Kernel.Launch
import proofs.«133646_j47940424958601_2_alg».proof.Proof.Gen.Kernel.Points
import proofs.«133646_j47940424958601_2_alg».proof.Proof.Gen.Kernel.Frame
import proofs.«133646_j47940424958601_2_alg».proof.Proof.Gen.KernelIdeal
import proofs.«133646_j47940424958601_2_alg».proof.Proof.Gen.KernelIdeal.Skeleton
import proofs.«133646_j47940424958601_2_alg».proof.Proof.Gen.KernelIdeal.Launch
import proofs.«133646_j47940424958601_2_alg».proof.Proof.Gen.KernelIdeal.Points
import proofs.«133646_j47940424958601_2_alg».proof.Proof.Gen.KernelIdeal.Frame
import proofs.«133646_j47940424958601_2_alg».proof.Proof.Gen.ReferenceIdeal
import proofs.«133646_j47940424958601_2_alg».proof.Proof.Gen.ReferenceIdeal.Read
import proofs.«133646_j47940424958601_2_alg».proof.Proof.Gen.Pre_finite_inputs
import proofs.«133646_j47940424958601_2_alg».proof.Proof.Spec
import proofs.«133646_j47940424958601_2_alg».proof.Proof.KernelRun
import proofs.«133646_j47940424958601_2_alg».proof.Proof.Pointwise
import proofs.«133646_j47940424958601_2_alg».proof.Proof.Region0
import proofs.«133646_j47940424958601_2_alg».proof.Proof.Region1
import proofs.«133646_j47940424958601_2_alg».proof.Proof.Glue
import proofs.«133646_j47940424958601_2_alg».proof.Proof.RefMatrices
import Idealize.ShloMosaic.Adequacy
import Idealize.ShloMosaic.Init

noncomputable section

open Idealize.ShloMosaic Idealize.ShloMosaic.TcCoe Idealize.SL.Sem Idealize.ShloMosaic.ValueIdx

/-! ## The idealized kernel program's four results as functions of its arguments -/

namespace Cert.KernelIdeal.Result

open Cert.KernelIdeal Cert.KernelIdeal.Gen Cert.Bounds

variable (m : (ℓ : Loc nD τ sig) → Buf (Elt Ideal) ℓ) (ρ : Dev nD → PrngReg)

/-- The lower concrete bounds end at the first call's fourth output. -/
theorem conc_low (c : Dev nD) :
    W7 m ρ c (Proc.devRef .tc main_v0_3)
      = k0_pay9 (F := Ideal) (m ((c : Thread nD τ).loc main_arg0)) (m ((c : Thread nD τ).loc main_arg1)) (m ((c : Thread nD τ).loc main_arg2)) := by
  rw [Glue.exit_conc_low, Region0.arr_conc_low, Glue.entry0_arg0, Glue.entry0_arg1, Glue.entry0_arg2]

/-- The upper concrete bounds end at the first call's fifth output. -/
theorem conc_up (c : Dev nD) :
    W7 m ρ c (Proc.devRef .tc main_v0_4)
      = k0_pay1 (F := Ideal) (m ((c : Thread nD τ).loc main_arg1)) (Scalar.ofBits .f32 0x00000000#32) := by
  rw [Glue.exit_conc_up, Region0.arr_conc_up, Glue.entry0_arg1]

/-- The lower matrix: the second call writes it from the padded slopes, whose first 8192 entries are the first
    call's slopes. -/
theorem low (c : Dev nD) :
    W7 m ρ c (Proc.devRef .tc main_v5_0)
      = lowMat (k0_pay6 (F := Ideal) (m ((c : Thread nD τ).loc main_arg0)) (m ((c : Thread nD τ).loc main_arg1)) (m ((c : Thread nD τ).loc main_arg2))) := by
  rw [Glue.exit_low, Region1.arr_low]
  refine lowMatPad_eq _ _ fun k => ?_
  rw [Glue.entry1_v1, Region0.arr_diag_low, Glue.entry0_arg0, Glue.entry0_arg1, Glue.entry0_arg2]

/-- The upper matrix: likewise from the padded slopes and the biases with one entry appended. -/
theorem up (c : Dev nD) :
    W7 m ρ c (Proc.devRef .tc main_v5_1)
      = upMat (k0_pay7 (F := Ideal) (m ((c : Thread nD τ).loc main_arg0)) (m ((c : Thread nD τ).loc main_arg1)))
          (k0_pay8 (F := Ideal) (m ((c : Thread nD τ).loc main_arg0)) (m ((c : Thread nD τ).loc main_arg1))) := by
  rw [Glue.exit_up, Region1.arr_up]
  refine upMatPad_eq _ _ _ _ (fun k => ?_) (fun k => ?_)
  · rw [Glue.entry1_v2, Region0.arr_diag_up, Glue.entry0_arg0, Glue.entry0_arg1]
  · rw [Glue.entry1_v4, Region0.arr_bias_up, Glue.entry0_arg0, Glue.entry0_arg1]

end Cert.KernelIdeal.Result

/-! ## The claims -/

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.2.2.2.1, (h c).2.2.2.2.2.1, (h c).2.2.2.2.2.2⟩)
    (Cert.ReferenceIdeal.Value.run (F := Ideal) m ρ)

/-- Both programs, from memories agreeing on the three argument vectors, end with the same two vectors and the
    same two matrices: the vectors are the same selections entry by entry, and each matrix is the diagonal, bias row
    and corner placed from equal vectors. -/
theorem algebraic : Cert.algebraic_KernelIdeal_ReferenceIdeal := by
  intro m ρ m' ρ' _ hagree
  refine ⟨_, _, _, _, Cert.KernelIdeal.Run.run_named (F := Ideal) m ρ, ?_⟩
  refine (θ_run Cert.ReferenceIdeal.defs _ _).mono (fun _ h c => ?_) (Cert.ReferenceIdeal.Value.run (F := Ideal) m' ρ')
  obtain ⟨h1, h2, h3, h4, h5, h6, h7⟩ := h c
  obtain ⟨a0, a1, a2⟩ := hagree c
  refine ⟨h1.trans ?_, h2.trans ?_, h3.trans ?_, h4.trans ?_, h5, h6, h7⟩
  · rw [Cert.ReferenceIdeal.Read.val_main_v26_eq, a0, a1, a2, Cert.KernelIdeal.Result.conc_low, Cert.Pointwise.conc_low_eq]
  · rw [Cert.ReferenceIdeal.Read.val_main_v29_eq, a1, Cert.KernelIdeal.Result.conc_up, Cert.Pointwise.conc_up_eq]
  · rw [Cert.ReferenceIdeal.Read.val_main_v49_eq, a0, a1, a2, Cert.KernelIdeal.Result.low, Cert.Pointwise.diag_low_eq,
      Cert.ReferenceIdeal.RefValue.ref_low]
  · rw [Cert.ReferenceIdeal.Read.val_main_v72_eq, a0, a1, Cert.KernelIdeal.Result.up, Cert.Pointwise.diag_up_eq,
      Cert.Pointwise.bias_up_eq, Cert.ReferenceIdeal.RefValue.ref_up]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
